-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "d_eps_sq" .f32 0x2D8CBCCC#32 ((77371252064649 / 4835703278458516698824704 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x2048x16 : Shape := ⟨3, ![1, 2048, 16]⟩
abbrev S3 : Shape := ⟨1, ![3]⟩
abbrev S_ : Shape := ⟨0, ![]⟩

class Facts : Prop where
  bcast_S_S1x2048x16 : S_.BroadcastsInDim S1x2048x16 (![] : Fin 0 → Fin S1x2048x16.rank)
  reducesTo_S1x2048x16_S_d0_1_2 : S1x2048x16.ReducesTo [0, 1, 2] S_
  h_S_ : 0 < S_.numel
  bcast_S_S3 : S_.BroadcastsInDim S3 (![] : Fin 0 → Fin S3.rank)
  reducesTo_S3_S_d0 : S3.ReducesTo [0] S_

variable [Facts]

def fn {F : FTy → Type} [FloatOps F] (main_arg0 : FVec F S1x2048x16 .f32) (main_arg1 : FVec F S3 .f32) (main_arg2 : FVec F S3 .f32) : IVec S_ 1 :=
  let main_v0 : FVec F S1x2048x16 .f32 := Host.absf main_arg0
  let main_cst : FVec F S_ .f32 := constant S_ .f32 0x7F800000#32
  let main_v1 : FVec F S1x2048x16 .f32 := broadcastInDim S1x2048x16 ![] bcast_S_S1x2048x16 main_cst
  let main_v2 : IVec S1x2048x16 1 := cmpf .olt main_v0 main_v1
  let main_c : IVec S_ 1 := constantI S_ 1 1#1
  let main_v3 : IVec S_ 1 := (fun x v => Host.reduce IntOp.andi x v reducesTo_S1x2048x16_S_d0_1_2 h_S_) main_v2 main_c
  let main_v4 : FVec F S3 .f32 := Host.absf main_arg1
  let main_cst_0 : FVec F S_ .f32 := constant S_ .f32 0x7F800000#32
  let main_v5 : FVec F S3 .f32 := broadcastInDim S3 ![] bcast_S_S3 main_cst_0
  let main_v6 : IVec S3 1 := cmpf .olt main_v4 main_v5
  let main_c_1 : IVec S_ 1 := constantI S_ 1 1#1
  let main_v7 : IVec S_ 1 := (fun x v => Host.reduce IntOp.andi x v reducesTo_S3_S_d0 h_S_) main_v6 main_c_1
  let main_v8 : IVec S_ 1 := andi main_v3 main_v7
  let main_v9 : FVec F S3 .f32 := Host.absf main_arg2
  let main_cst_2 : FVec F S_ .f32 := constant S_ .f32 0x7F800000#32
  let main_v10 : FVec F S3 .f32 := broadcastInDim S3 ![] bcast_S_S3 main_cst_2
  let main_v11 : IVec S3 1 := cmpf .olt main_v9 main_v10
  let main_c_3 : IVec S_ 1 := constantI S_ 1 1#1
  let main_v12 : IVec S_ 1 := (fun x v => Host.reduce IntOp.andi x v reducesTo_S3_S_d0 h_S_) main_v11 main_c_3
  let main_v13 : IVec S_ 1 := andi main_v8 main_v12
  main_v13
-- ==== Kernel.lean ====
abbrev S1x2048x16 : Shape := ⟨3, ![1, 2048, 16]⟩
abbrev S3 : Shape := ⟨1, ![3]⟩
abbrev S2048x16 : Shape := ⟨2, ![2048, 16]⟩
abbrev S2048x1x16 : Shape := ⟨3, ![2048, 1, 16]⟩
abbrev S2048x4x16 : Shape := ⟨3, ![2048, 4, 16]⟩
abbrev S8192x16 : Shape := ⟨2, ![8192, 16]⟩
abbrev S16x8192 : Shape := ⟨2, ![16, 8192]⟩
abbrev S1 : Shape := ⟨1, ![1]⟩
abbrev S4 : Shape := ⟨1, ![4]⟩
abbrev S1x4 : Shape := ⟨2, ![1, 4]⟩
abbrev S2048x4 : Shape := ⟨2, ![2048, 4]⟩
abbrev S8192 : Shape := ⟨1, ![8192]⟩
abbrev S1x8192 : Shape := ⟨2, ![1, 8192]⟩
abbrev S2048x8192 : Shape := ⟨2, ![2048, 8192]⟩
abbrev S1x2048x2048x4 : Shape := ⟨4, ![1, 2048, 2048, 4]⟩
abbrev S64x16 : Shape := ⟨2, ![64, 16]⟩
abbrev S64x8192 : Shape := ⟨2, ![64, 8192]⟩
abbrev S64 : Shape := ⟨1, ![64]⟩
abbrev S64x1 : Shape := ⟨2, ![64, 1]⟩

abbrev nBuf : Space → Nat
  | .hbm => 22
  | .vmem => 7
  | .smem => 0
  | _ => 0

abbrev bufTy : (tb : Table) → Fin (tcTables nBuf tb) → BufTy
  | .hbm, ⟨0, _⟩ => ⟨S1x2048x16, .f32⟩
  | .hbm, ⟨1, _⟩ => ⟨S3, .f32⟩
  | .hbm, ⟨2, _⟩ => ⟨S3, .f32⟩
  | .hbm, ⟨3, _⟩ => ⟨S2048x16, .f32⟩
  | .hbm, ⟨4, _⟩ => ⟨S2048x1x16, .f32⟩
  | .hbm, ⟨5, _⟩ => ⟨S2048x4x16, .f32⟩
  | .hbm, ⟨6, _⟩ => ⟨S8192x16, .f32⟩
  | .hbm, ⟨7, _⟩ => ⟨S16x8192, .f32⟩
  | .hbm, ⟨8, _⟩ => ⟨S1, .f32⟩
  | .hbm, ⟨9, _⟩ => ⟨S4, .f32⟩
  | .hbm, ⟨10, _⟩ => ⟨S1x4, .f32⟩
  | .hbm, ⟨11, _⟩ => ⟨S2048x4, .f32⟩
  | .hbm, ⟨12, _⟩ => ⟨S8192, .f32⟩
  | .hbm, ⟨13, _⟩ => ⟨S1x8192, .f32⟩
  | .hbm, ⟨14, _⟩ => ⟨S1, .f32⟩
  | .hbm, ⟨15, _⟩ => ⟨S4, .f32⟩
  | .hbm, ⟨16, _⟩ => ⟨S1x4, .f32⟩
  | .hbm, ⟨17, _⟩ => ⟨S2048x4, .f32⟩
  | .hbm, ⟨18, _⟩ => ⟨S8192, .f32⟩
  | .hbm, ⟨19, _⟩ => ⟨S1x8192, .f32⟩
  | .hbm, ⟨20, _⟩ => ⟨S2048x8192, .f32⟩
  | .hbm, ⟨21, _⟩ => ⟨S1x2048x2048x4, .f32⟩
  | .local _ .vmem, ⟨0, _⟩ => ⟨S64x16, .f32⟩
  | .local _ .vmem, ⟨1, _⟩ => ⟨S64x16, .f32⟩
  | .local _ .vmem, ⟨2, _⟩ => ⟨S16x8192, .f32⟩
  | .local _ .vmem, ⟨3, _⟩ => ⟨S1x8192, .f32⟩
  | .local _ .vmem, ⟨4, _⟩ => ⟨S1x8192, .f32⟩
  | .local _ .vmem, ⟨5, _⟩ => ⟨S64x8192, .f32⟩
  | .local _ .vmem, ⟨6, _⟩ => ⟨S64x8192, .f32⟩
  | _, _ => ⟨S1x2048x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_call0_v7 : Ref sig .tc := ⟨.hbm, 10, rfl⟩
abbrev main_call0_v8 : Ref sig .tc := ⟨.hbm, 11, rfl⟩
abbrev main_call0_v9 : Ref sig .tc := ⟨.hbm, 12, rfl⟩
abbrev main_call0_v10 : Ref sig .tc := ⟨.hbm, 13, rfl⟩
abbrev main_call0_v11 : Ref sig .tc := ⟨.hbm, 14, rfl⟩
abbrev main_call0_v12 : Ref sig .tc := ⟨.hbm, 15, rfl⟩
abbrev main_call0_v13 : Ref sig .tc := ⟨.hbm, 16, rfl⟩
abbrev main_call0_v14 : Ref sig .tc := ⟨.hbm, 17, rfl⟩
abbrev main_call0_v15 : Ref sig .tc := ⟨.hbm, 18, rfl⟩
abbrev main_call0_v16 : Ref sig .tc := ⟨.hbm, 19, rfl⟩
abbrev main_call0_v17 : Ref sig .tc := ⟨.hbm, 20, rfl⟩
abbrev main_v0 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S64x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S1x2048x16_S2048x16 : S1x2048x16.ShapeCasts S2048x16
  bcast_S2048x16_S2048x1x16_0_2 : S2048x16.BroadcastsInDim S2048x1x16 (![0, 2] : Fin 2 → Fin S2048x1x16.rank)
  bcast_S2048x1x16_S2048x4x16_0_1_2 : S2048x1x16.BroadcastsInDim S2048x4x16 (![0, 1, 2] : Fin 3 → Fin S2048x4x16.rank)
  shapeCasts_S2048x4x16_S8192x16 : S2048x4x16.ShapeCasts S8192x16
  transposes_S8192x16_S16x8192_1_0 : S8192x16.Transposes [1, 0] S16x8192
  slices_S3_S1_0 : S3.Slices ![0] S1
  concatenates_S1_S3_S4_d0 : Shape.Concatenates [S1, S3] S4 0
  shapeCasts_S4_S1x4 : S4.ShapeCasts S1x4
  bcast_S1x4_S2048x4_0_1 : S1x4.BroadcastsInDim S2048x4 (![0, 1] : Fin 2 → Fin S2048x4.rank)
  shapeCasts_S2048x4_S8192 : S2048x4.ShapeCasts S8192
  bcast_S8192_S1x8192_1 : S8192.BroadcastsInDim S1x8192 (![1] : Fin 1 → Fin S1x8192.rank)
  shapeCasts_S2048x8192_S1x2048x2048x4 : S2048x8192.ShapeCasts S1x2048x2048x4
  inb_S64x16_S64x16_0_0 : ∀ a, (![0, 0] : Fin 2 → Nat) a + S64x16.size a ≤ S64x16.size a
  h_S64x16 : 0 < S64x16.numel
  shapeCasts_S64x16_S64x16 : S64x16.ShapeCasts S64x16
  inb_S16x8192_S16x8192_0_0 : ∀ a, (![0, 0] : Fin 2 → Nat) a + S16x8192.size a ≤ S16x8192.size a
  h_S16x8192 : 0 < S16x8192.numel
  shapeCasts_S16x8192_S16x8192 : S16x8192.ShapeCasts S16x8192
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  reduces_S64x16_S64 : S64x16.Reduces [1] S64
  shapeCasts_S64_S64x1 : S64.ShapeCasts S64x1
  reduces_S16x8192_S8192 : S16x8192.Reduces [0] S8192
  shapeCasts_S8192_S1x8192 : S8192.ShapeCasts S1x8192
  broadcasts_S64x1_S64x8192 : S64x1.Broadcasts S64x8192
  broadcasts_S1x8192_S64x8192 : S1x8192.Broadcasts S64x8192
  rotates_S64x8192_d1 : S64x8192.Rotates 1 none
  iota_S64x8192_d1_w32 : S64x8192.Iotas .tc 32 [1]
  inb_S64x8192_S64x8192_0_0 : ∀ a, (![0, 0] : Fin 2 → Nat) a + S64x8192.size a ≤ S64x8192.size a
  h_S64x8192 : 0 < S64x8192.numel
  dot_S64x16_S16x8192_S64x8192_1_0_0_1_n_n_wf : DotDims.WF S64x16 S16x8192 S64x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x16.size a ≤ S2048x16.size a
  hwx0_0 : ∀ i : grid0.Coords, EltTy.bits .f32 = 32 ∨ (Rect.block (s := S2048x16) S64x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x8192.size a ≤ S16x8192.size a
  hwx0_1 : ∀ i : grid0.Coords, EltTy.bits .f32 = 32 ∨ (Rect.block (s := S16x8192) S16x8192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8192.size a ≤ S1x8192.size a
  hwx0_2 : ∀ i : grid0.Coords, EltTy.bits .f32 = 32 ∨ (Rect.block (s := S1x8192) S1x8192.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8192.size a ≤ S1x8192.size a
  hwx0_3 : ∀ i : grid0.Coords, EltTy.bits .f32 = 32 ∨ (Rect.block (s := S1x8192) S1x8192.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x8192.size a ≤ S2048x8192.size a
  hwx0_4 : ∀ i : grid0.Coords, EltTy.bits .f32 = 32 ∨ (Rect.block (s := S2048x8192) S64x8192.size (cc0_transform_4 i) (hinb0_4 i)).WholeWords (EltTy.packing .f32)

variable [Facts₀]

def dot_S64x16_S16x8192_S64x8192_1_0_0_1_n_n : DotDims S64x16 S16x8192 S64x8192 where
  lhsContracting := [1]
  rhsContracting := [0]
  lhsNonContracting := [0]
  rhsNonContracting := [1]
  lhsBatch := []
  rhsBatch := []
  wf := dot_S64x16_S16x8192_S64x8192_1_0_0_1_n_n_wf

abbrev win0_0 : Pipeline.Window sig grid0 :=
  Pipeline.Window.ofSpec (Memref.whole main_call0_v0) S64x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v4) S16x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v10) S1x8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v16) S1x8192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v17) S64x8192.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1x2048x16 : Shape := ⟨3, ![1, 2048, 16]⟩
abbrev S3 : Shape := ⟨1, ![3]⟩
abbrev S1x2048x1x16 : Shape := ⟨4, ![1, 2048, 1, 16]⟩
abbrev S1x1x2048x16 : Shape := ⟨4, ![1, 1, 2048, 16]⟩
abbrev S1x2048x2048x16 : Shape := ⟨4, ![1, 2048, 2048, 16]⟩
abbrev S_ : Shape := ⟨0, ![]⟩
abbrev S1x2048x2048 : Shape := ⟨3, ![1, 2048, 2048]⟩
abbrev S1x2048x2048x1 : Shape := ⟨4, ![1, 2048, 2048, 1]⟩
abbrev S1x1x1x3 : Shape := ⟨4, ![1, 1, 1, 3]⟩
abbrev S1x2048x2048x3 : Shape := ⟨4, ![1, 2048, 2048, 3]⟩
abbrev S1x2048x2048x4 : Shape := ⟨4, ![1, 2048, 2048, 4]⟩

abbrev nBuf : Space → Nat
  | .hbm => 37
  | .vmem => 0
  | .smem => 0
  | _ => 0

abbrev bufTy : (tb : Table) → Fin (tcTables nBuf tb) → BufTy
  | .hbm, ⟨0, _⟩ => ⟨S1x2048x16, .f32⟩
  | .hbm, ⟨1, _⟩ => ⟨S3, .f32⟩
  | .hbm, ⟨2, _⟩ => ⟨S3, .f32⟩
  | .hbm, ⟨3, _⟩ => ⟨S1x2048x1x16, .f32⟩
  | .hbm, ⟨4, _⟩ => ⟨S1x1x2048x16, .f32⟩
  | .hbm, ⟨5, _⟩ => ⟨S1x2048x2048x16, .f32⟩
  | .hbm, ⟨6, _⟩ => ⟨S1x2048x2048x16, .f32⟩
  | .hbm, ⟨7, _⟩ => ⟨S1x2048x2048x16, .f32⟩
  | .hbm, ⟨8, _⟩ => ⟨S_, .f32⟩
  | .hbm, ⟨9, _⟩ => ⟨S1x2048x2048x16, .f32⟩
  | .hbm, ⟨10, _⟩ => ⟨S1x2048x2048x16, .f32⟩
  | .hbm, ⟨11, _⟩ => ⟨S1x2048x2048x16, .f32⟩
  | .hbm, ⟨12, _⟩ => ⟨S_, .f32⟩
  | .hbm, ⟨13, _⟩ => ⟨S1x2048x2048, .f32⟩
  | .hbm, ⟨14, _⟩ => ⟨S1x2048x2048x1, .f32⟩
  | .hbm, ⟨15, _⟩ => ⟨S1x2048x2048x1, .f32⟩
  | .hbm, ⟨16, _⟩ => ⟨S1x1x1x3, .f32⟩
  | .hbm, ⟨17, _⟩ => ⟨S1x2048x2048x3, .f32⟩
  | .hbm, ⟨18, _⟩ => ⟨S1x2048x2048x3, .f32⟩
  | .hbm, ⟨19, _⟩ => ⟨S1x2048x2048x3, .f32⟩
  | .hbm, ⟨20, _⟩ => ⟨S1x1x1x3, .f32⟩
  | .hbm, ⟨21, _⟩ => ⟨S1x2048x2048x3, .f32⟩
  | .hbm, ⟨22, _⟩ => ⟨S1x2048x2048x3, .f32⟩
  | .hbm, ⟨23, _⟩ => ⟨S1x2048x2048x3, .f32⟩
  | .hbm, ⟨24, _⟩ => ⟨S_, .f32⟩
  | .hbm, ⟨25, _⟩ => ⟨S1x2048x2048x3, .f32⟩
  | .hbm, ⟨26, _⟩ => ⟨S1x2048x2048x3, .f32⟩
  | .hbm, ⟨27, _⟩ => ⟨S_, .f32⟩
  | .hbm, ⟨28, _⟩ => ⟨S1x2048x2048x3, .f32⟩
  | .hbm, ⟨29, _⟩ => ⟨S1x2048x2048x3, .f32⟩
  | .hbm, ⟨30, _⟩ => ⟨S_, .f32⟩
  | .hbm, ⟨31, _⟩ => ⟨S1x2048x2048, .f32⟩
  | .hbm, ⟨32, _⟩ => ⟨S1x2048x2048x1, .f32⟩
  | .hbm, ⟨33, _⟩ => ⟨S_, .f32⟩
  | .hbm, ⟨34, _⟩ => ⟨S1x2048x2048x1, .f32⟩
  | .hbm, ⟨35, _⟩ => ⟨S1x2048x2048x1, .f32⟩
  | .hbm, ⟨36, _⟩ => ⟨S1x2048x2048x4, .f32⟩
  | _, _ => ⟨S1x2048x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_1 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]

class Facts₀ : Prop where
  bcast_S1x2048x16_S1x2048x1x16_0_1_3 : S1x2048x16.BroadcastsInDim S1x2048x1x16 (![0, 1, 3] : Fin 3 → Fin S1x2048x1x16.rank)
  bcast_S1x2048x16_S1x1x2048x16_0_2_3 : S1x2048x16.BroadcastsInDim S1x1x2048x16 (![0, 2, 3] : Fin 3 → Fin S1x1x2048x16.rank)
  bcast_S1x2048x1x16_S1x2048x2048x16_0_1_2_3 : S1x2048x1x16.BroadcastsInDim S1x2048x2048x16 (![0, 1, 2, 3] : Fin 4 → Fin S1x2048x2048x16.rank)
  bcast_S1x1x2048x16_S1x2048x2048x16_0_1_2_3 : S1x1x2048x16.BroadcastsInDim S1x2048x2048x16 (![0, 1, 2, 3] : Fin 4 → Fin S1x2048x2048x16.rank)
  bcast_S_S1x2048x2048x16 : S_.BroadcastsInDim S1x2048x2048x16 (![] : Fin 0 → Fin S1x2048x2048x16.rank)
  reducesTo_S1x2048x2048x16_S1x2048x2048_d3 : S1x2048x2048x16.ReducesTo [3] S1x2048x2048
  h_S_ : 0 < S_.numel
  bcast_S1x2048x2048_S1x2048x2048x1_0_1_2 : S1x2048x2048.BroadcastsInDim S1x2048x2048x1 (![0, 1, 2] : Fin 3 → Fin S1x2048x2048x1.rank)
  bcast_S3_S1x1x1x3_3 : S3.BroadcastsInDim S1x1x1x3 (![3] : Fin 1 → Fin S1x1x1x3.rank)
  bcast_S1x2048x2048x1_S1x2048x2048x3_0_1_2_3 : S1x2048x2048x1.BroadcastsInDim S1x2048x2048x3 (![0, 1, 2, 3] : Fin 4 → Fin S1x2048x2048x3.rank)
  bcast_S1x1x1x3_S1x2048x2048x3_0_1_2_3 : S1x1x1x3.BroadcastsInDim S1x2048x2048x3 (![0, 1, 2, 3] : Fin 4 → Fin S1x2048x2048x3.rank)
  bcast_S_S1x2048x2048x3 : S_.BroadcastsInDim S1x2048x2048x3 (![] : Fin 0 → Fin S1x2048x2048x3.rank)
  reducesTo_S1x2048x2048x3_S1x2048x2048_d3 : S1x2048x2048x3.ReducesTo [3] S1x2048x2048
  bcast_S_S1x2048x2048x1 : S_.BroadcastsInDim S1x2048x2048x1 (![] : Fin 0 → Fin S1x2048x2048x1.rank)
  concatenates_S1x2048x2048x1_S1x2048x2048x3_S1x2048x2048x4_d3 : Shape.Concatenates [S1x2048x2048x1, S1x2048x2048x3] S1x2048x2048x4 3

variable [Facts₀]

class Facts : Prop extends Facts₀ where

variable [Facts]
-- ==== Proof.Spec.lean ====
/-
  The decoder's result, entry by entry, as a function of the three argument arrays over the extended reals.

  For nodes `i`, `j` the squared distance is `sqd x i j = Σ_l (x[i,l] − x[j,l] + ε)²` over the 16 coordinates, `ε` the
  reference's printed word for 1e-6, written as the host's sum writes it (the initial value `0` in front). The edge
  probability of type `k` is the Fermi–Dirac value `1 / (exp ((√(sqd) − r[k]) · t[k]) + 1)`, and the result's last axis
  holds, at position 0, one minus the largest of the three edge probabilities and, at position `k + 1`, the probability of
  type `k`. Float words that both programs carry (0, 1, ε) are kept as words: nothing here evaluates them.
-/
import Idealize.ShloMosaic.PureOps.Ideal
import Idealize.ShloMosaic.Lib.ValueIdx

noncomputable section

open scoped BigOperators

namespace Cert.Spec

open Idealize.ShloMosaic Idealize.ShloMosaic.ValueIdx

/-- The word `1.0`, as both programs print it. -/
abbrev one : EReal := Ideal.ofBits .f32 0x3F800000#32
/-- The reference's word for `1e-6`. -/
abbrev eps : EReal := Ideal.ofBits .f32 0x358637BD#32
/-- The word `0.0`. -/
abbrev zero : EReal := Ideal.ofBits .f32 0x00000000#32

/-- The squared distance between nodes `i` and `j`, each coordinate's difference shifted by `ε`. -/
def sqd (x : (⟨3, ![1, 2048, 16]⟩ : Shape).Idx → EReal) (i j : Fin 2048) : EReal :=
  zero + ∑ l : Fin 16, (x (ix3 (0 : Fin 1) i l) - x (ix3 (0 : Fin 1) j l) + eps) * (x (ix3 (0 : Fin 1) i l) - x (ix3 (0 : Fin 1) j l) + eps)

/-- The Fermi–Dirac value at squared distance `d`, radius `r` and temperature `t`. -/
def fermi (d r t : EReal) : EReal :=
  Ideal.div one (Ideal.exp ((Ideal.sqrt d - r) * t) + one)

/-- The probability of an edge of type `k` between nodes `i` and `j`. -/
def edge (x : (⟨3, ![1, 2048, 16]⟩ : Shape).Idx → EReal) (r t : (⟨1, ![3]⟩ : Shape).Idx → EReal) (i j : Fin 2048) (k : Fin 3) : EReal :=
  fermi (sqd x i j) (r (ix1 k)) (t (ix1 k))

/-- The result at `(0, i, j, k)`: no edge at `k = 0`, the edge of type `k − 1` otherwise. -/
def entry (x : (⟨3, ![1, 2048, 16]⟩ : Shape).Idx → EReal) (r t : (⟨1, ![3]⟩ : Shape).Idx → EReal) (i j : Fin 2048) (k : Fin 4) : EReal :=
  if k.val = 0 then one - max (edge x r t i j 0) (max (edge x r t i j 1) (edge x r t i j 2))
  else edge x r t i j ⟨k.val - 1, by omega⟩

theorem entry_zero (x : (⟨3, ![1, 2048, 16]⟩ : Shape).Idx → EReal) (r t : (⟨1, ![3]⟩ : Shape).Idx → EReal) (i j : Fin 2048) :
    entry x r t i j 0 = one - max (edge x r t i j 0) (max (edge x r t i j 1) (edge x r t i j 2)) := by
  unfold entry; exact if_pos rfl

theorem entry_succ (x : (⟨3, ![1, 2048, 16]⟩ : Shape).Idx → EReal) (r t : (⟨1, ![3]⟩ : Shape).Idx → EReal) (i j : Fin 2048) (k : Fin 3) :
    entry x r t i j k.succ = edge x r t i j k := by
  unfold entry
  have h : ¬ (k.succ.val = 0) := by simp
  rw [if_neg h]
  exact congrArg (edge x r t i j) (Fin.ext (by simp))

end Cert.Spec

end
-- ==== Proof.RefEntry.lean ====
/-
  The reference's result, read one entry at a time, is the specification's entry.

  At (0, i, j, k) the result is a concatenation along the last axis of a piece of extent 1 and a piece of extent 3.
  The second piece holds, at type k, the Fermi–Dirac value 1 / (exp ((√d − r[k]) · t[k]) + 1), where d is the squared
  distance Σ_l (x[i,l] − x[j,l] + ε)² over the 16 coordinates, summed from the initial value 0. The first piece holds one
  minus the maximum over the three types of the second piece, the maximum taken from −∞, which is the least extended
  real and so drops out. Each stage is read at one index; the index functions the broadcasts compose are identified
  with the coordinates they keep.
-/
import proofs.«177336_g91164975825054_cont_sun_m_1275_4_alg».proof.Proof.RefReadP
import proofs.«177336_g91164975825054_cont_sun_m_1275_4_alg».proof.Proof.Spec
import Idealize.ShloMosaic.Lib.ValueIdx
import Idealize.ShloMosaic.Lib.Pipeline.Value
import Idealize.ShloMosaic.PureOps.Ideal.Laws
import Idealize.ShloMosaic.PureOps.Reduce

noncomputable section

open scoped BigOperators

namespace Cert.ReferenceIdeal.RefEntry

open Cert.ReferenceIdeal Cert.ReferenceIdeal.Gen Idealize.ShloMosaic Idealize.ShloMosaic.TcCoe Idealize.ShloMosaic.ValueIdx

/-! ## The squared distance -/

/-- Coordinate l of node i: the summand's index (0, i, j, l) read back through the two broadcasts of the first operand. -/
theorem idx_left (i j : Fin 2048) (l : Fin 16) :
    ReadP.idx_main_v0 (ReadP.idx_main_v2 (ReadP.idx_main_v8 (ix3 (0 : Fin 1) i j) l)) = ix3 (0 : Fin 1) i l :=
  funext fun a => Fin.ext (by match a with | ⟨0, _⟩ => rfl | ⟨1, _⟩ => rfl | ⟨2, _⟩ => rfl)

/-- Coordinate l of node j: the same index read back through the two broadcasts of the second operand. -/
theorem idx_right (i j : Fin 2048) (l : Fin 16) :
    ReadP.idx_main_v1 (ReadP.idx_main_v3 (ReadP.idx_main_v8 (ix3 (0 : Fin 1) i j) l)) = ix3 (0 : Fin 1) j l :=
  funext fun a => Fin.ext (by match a with | ⟨0, _⟩ => rfl | ⟨1, _⟩ => rfl | ⟨2, _⟩ => rfl)

/-- The sum over the 16 coordinates at (0, i, j) is the squared distance between nodes i and j. -/
theorem sqd_read (x : (⟨S1x2048x16, .f32⟩ : BufTy).Contents (Elt Ideal)) (i j : Fin 2048) :
    ReadP.val_main_v8 (F := Ideal) x (ix3 (0 : Fin 1) i j) = Cert.Spec.sqd x i j := by
  rw [ReadP.val_main_v8_apply]
  unfold Cert.Spec.sqd
  refine congrArg₂ (· + ·) rfl (Finset.sum_congr rfl fun l _ => ?_)
  rw [ReadP.val_main_v7_apply, ReadP.val_main_v6_apply, ReadP.val_main_v4_apply, ReadP.val_main_v2_apply,
    ReadP.val_main_v3_apply, ReadP.val_main_v0_apply, ReadP.val_main_v1_apply, ReadP.val_main_v5_apply,
    ReadP.val_main_cst_apply, idx_left, idx_right]
  rfl

/-! ## The Fermi–Dirac value of one type -/

/-- The pair (i, j): the index (0, i, j, k) read back through the two broadcasts around the square root. -/
theorem idx_pair (i j : Fin 2048) (k : Fin 3) :
    ReadP.idx_main_v9 (ReadP.idx_main_v12 (ix4 (0 : Fin 1) i j k)) = ix3 (0 : Fin 1) i j :=
  funext fun a => Fin.ext (by match a with | ⟨0, _⟩ => rfl | ⟨1, _⟩ => rfl | ⟨2, _⟩ => rfl)

/-- The type k: the index (0, i, j, k) read back through the two broadcasts of the radii. -/
theorem idx_radius (i j : Fin 2048) (k : Fin 3) :
    ReadP.idx_main_v11 (ReadP.idx_main_v13 (ix4 (0 : Fin 1) i j k)) = ix1 k :=
  funext fun a => Fin.ext (by match a with | ⟨0, _⟩ => rfl)

/-- The type k: the index (0, i, j, k) read back through the two broadcasts of the temperatures. -/
theorem idx_temp (i j : Fin 2048) (k : Fin 3) :
    ReadP.idx_main_v15 (ReadP.idx_main_v16 (ix4 (0 : Fin 1) i j k)) = ix1 k :=
  funext fun a => Fin.ext (by match a with | ⟨0, _⟩ => rfl)

/-- The quotient at (0, i, j, k) is the probability of an edge of type k between nodes i and j. -/
theorem edge_read (x : (⟨S1x2048x16, .f32⟩ : BufTy).Contents (Elt Ideal)) (r t : (⟨S3, .f32⟩ : BufTy).Contents (Elt Ideal))
    (i j : Fin 2048) (k : Fin 3) :
    ReadP.val_main_v22 (F := Ideal) x r t (ix4 (0 : Fin 1) i j k) = Cert.Spec.edge x r t i j k := by
  rw [ReadP.val_main_v22_apply, ReadP.val_main_v21_apply, ReadP.val_main_cst_2_apply, ReadP.val_main_v20_apply,
    ReadP.val_main_v19_apply, ReadP.val_main_cst_1_apply, ReadP.val_main_v18_apply, ReadP.val_main_v17_apply,
    ReadP.val_main_v14_apply, ReadP.val_main_v12_apply, ReadP.val_main_v10_apply, ReadP.val_main_v9_apply,
    ReadP.val_main_v13_apply, ReadP.val_main_v11_apply, ReadP.val_main_v16_apply, ReadP.val_main_v15_apply,
    idx_pair, idx_radius, idx_temp, sqd_read]
  rfl

/-! ## The maximum over the three types -/

/-- A fold over three positions of a commutative, associative operation: the initial value joined to the three values. -/
theorem fold_univ_fin3 {α : Type} (f : α → α → α) [Std.Commutative f] [Std.Associative f] (b : α) (g : Fin 3 → α) :
    (Finset.univ : Finset (Fin 3)).fold f b g = f b (f (g 0) (f (g 1) (g 2))) := by
  simp only [Fin.univ_succ, Finset.fold_cons, Finset.fold_map, Finset.univ_unique, Finset.fold_singleton]
  show f (g 0) (f (g 1) (f (g 2) b)) = _
  ac_rfl

/-- The reduced index (0, i, j) with the type k put back on the last axis is (0, i, j, k). -/
theorem lift_ix (h : S1x2048x2048x3.Reduces [3] S1x2048x2048) (i j : Fin 2048) (k : Fin (S1x2048x2048x3.size 3)) :
    h.lift (ix3 (0 : Fin 1) i j) k = ix4 (0 : Fin 1) i j (⟨k.val, k.isLt⟩ : Fin 3) := by
  funext c; apply Fin.ext
  fin_cases c <;> rfl

/-- The word 0xFF800000 is −∞, the least extended real: its maximum with any value is that value. -/
theorem neg_inf_max (z : Ideal .f32) : max (Ideal.ofBits .f32 0xFF800000#32) z = z := by
  simp [Ideal.ofBits, Ideal.ieee]

/-- The reduce with a maximum body from −∞ over the three types, at (0, i, j), is the largest of the three values there. -/
theorem max_read (x : (⟨S1x2048x16, .f32⟩ : BufTy).Contents (Elt Ideal)) (r t : (⟨S3, .f32⟩ : BufTy).Contents (Elt Ideal))
    (i j : Fin 2048) :
    ReadP.val_main_v23 (F := Ideal) x r t (ix3 (0 : Fin 1) i j)
      = max (ReadP.val_main_v22 (F := Ideal) x r t (ix4 (0 : Fin 1) i j (0 : Fin 3)))
          (max (ReadP.val_main_v22 (F := Ideal) x r t (ix4 (0 : Fin 1) i j (1 : Fin 3)))
            (ReadP.val_main_v22 (F := Ideal) x r t (ix4 (0 : Fin 1) i j (2 : Fin 3)))) := by
  unfold ReadP.val_main_v23
  generalize ReadP.val_main_v22 (F := Ideal) x r t = y
  have h : S1x2048x2048x3.Reduces [3] S1x2048x2048 := by decide
  refine (Host.reduce_eq_fold_single (α := Ideal .f32) (s := S1x2048x2048x3) (t := S1x2048x2048) (a := 3)
    (FloatOps.maximumf (F := Ideal) (φ := .f32)) y (ReadP.val_main_cst_3 (F := Ideal)) _ h _ (ix3 (0 : Fin 1) i j)).trans ?_
  have e := fold_univ_fin3 (max : Ideal .f32 → Ideal .f32 → Ideal .f32) (Ideal.ofBits .f32 0xFF800000#32)
    (fun k : Fin 3 => y (ix4 (0 : Fin 1) i j k))
  have hf : (y ∘ h.lift (ix3 (0 : Fin 1) i j)) = fun k : Fin 3 => y (ix4 (0 : Fin 1) i j k) :=
    funext fun k => congrArg y (lift_ix h i j k)
  exact (congrArg (fun f => Finset.fold max (Ideal.ofBits .f32 0xFF800000#32) f (Finset.univ : Finset (Fin 3))) hf).trans
    (e.trans (neg_inf_max _))

/-! ## The result's entry -/

/-- The pair (i, j): the index (0, i, j, 0) read back through the broadcast after the maximum. -/
theorem idx_top (i j : Fin 2048) :
    ReadP.idx_main_v24 (ix4 (0 : Fin 1) i j (0 : Fin 1)) = ix3 (0 : Fin 1) i j :=
  funext fun a => Fin.ext (by match a with | ⟨0, _⟩ => rfl | ⟨1, _⟩ => rfl | ⟨2, _⟩ => rfl)

/-- The reference's result at (0, i, j, k) is the specification's entry: one minus the largest edge probability at
    k = 0, the probability of type k − 1 otherwise. -/
theorem ref_entry (x : (⟨S1x2048x16, .f32⟩ : BufTy).Contents (Elt Ideal)) (r t : (⟨S3, .f32⟩ : BufTy).Contents (Elt Ideal))
    (i j : Fin 2048) (k : Fin 4) :
    ReadP.val_main_v27 (F := Ideal) x r t (ix4 (0 : Fin 1) i j k) = Cert.Spec.entry x r t i j k := by
  unfold ReadP.val_main_v27
  rcases Fin.eq_zero_or_eq_succ k with rfl | ⟨k', rfl⟩
  · -- position 0 lies in the first piece, of extent 1
    refine Eq.trans ?_ (Cert.Spec.entry_zero x r t i j).symm
    refine (concatenate_pair_apply_left (t := S1x2048x2048x4) (s₁ := S1x2048x2048x1) (s₂ := S1x2048x2048x3) _ _ _ _ _ rfl
      (ix4 (0 : Fin 1) i j (0 : Fin 1)) (fun b => ?_)).trans ?_
    · match b with | ⟨0, _⟩ => rfl | ⟨1, _⟩ => rfl | ⟨2, _⟩ => rfl | ⟨3, _⟩ => rfl
    · rw [ReadP.val_main_v26_apply, ReadP.val_main_v25_apply, ReadP.val_main_cst_4_apply, ReadP.val_main_v24_apply,
        idx_top, max_read, edge_read, edge_read, edge_read]
      rfl
  · -- position k' + 1 lies in the second piece, at k': the first piece's extent 1 is the offset
    refine Eq.trans ?_ (Cert.Spec.entry_succ x r t i j k').symm
    refine (concatenate_pair_apply_right (t := S1x2048x2048x4) (s₁ := S1x2048x2048x1) (s₂ := S1x2048x2048x3) _ _ _ _ _ rfl rfl
      (ix4 (0 : Fin 1) i j k') (fun b hb => ?_) ?_).trans (edge_read x r t i j k')
    · match b with
      | ⟨0, _⟩ => rfl
      | ⟨1, _⟩ => rfl
      | ⟨2, _⟩ => rfl
      | ⟨3, _⟩ => exact absurd rfl hb
    · show k'.val + 1 = k'.succ.val
      exact (Fin.val_succ k').symm

end Cert.ReferenceIdeal.RefEntry

end
-- ==== Proof.Finite.lean ====
/-
  Under the printed precondition the first argument holds real numbers only.

  The precondition is a conjunction of three one-bit words, each the conjunction over a whole array of the comparisons
  |v| < +∞. A conjunction that is 1 has both conjuncts 1, and a conjunction over an array that is 1 met a 1 at every
  index; so at every index i of the first argument |x i| < +∞ holds over the extended reals, where |z| is max z (−z) and
  the word 0x7F800000 is +∞. An extended real is −∞, +∞ or a real, and the first two have absolute value +∞.
-/
import proofs.«177336_g91164975825054_cont_sun_m_1275_4_alg».proof.Pre_finite_inputs
import Idealize.ShloMosaic.Lib.ReduceAll
import Idealize.ShloMosaic.Lib.ValueIdx

noncomputable section

namespace Cert.Finite

open Idealize.ShloMosaic Idealize.ShloMosaic.ValueIdx

/-- The scalar shape has exactly one index. -/
instance : Subsingleton Cert.Pre_finite_inputs.S_.Idx := ⟨fun a b => funext fun d => d.elim0⟩

/-- A one-bit word made from a truth value is 1 exactly when the value is true. -/
theorem ofBool_eq_one {b : Bool} : BitVec.ofBool b = 1#1 ↔ b = true := by cases b <;> decide

/-- The word 0x7F800000 is +∞, the greatest extended real. -/
theorem pos_inf : Ideal.ofBits .f32 0x7F800000#32 = (⊤ : EReal) := by
  simp [Ideal.ofBits, Ideal.ieee]

/-- An extended real whose absolute value, max z (−z), lies strictly below +∞ is a real number: at −∞ and at +∞ the
    absolute value is +∞. -/
theorem real_of_abs_lt_top (z : EReal) (h : max z (-z) < ⊤) : ∃ a : ℝ, z = (a : EReal) := by
  induction z using EReal.rec with
  | bot => simp at h
  | coe a => exact ⟨a, rfl⟩
  | top => simp at h

/-- Under the printed precondition every entry of the first argument is a real number: the conjunction's first
    conjunct says that every |x i| compares strictly below +∞. -/
theorem x_real [Cert.Pre_finite_inputs.Facts] (x : FVec Ideal Cert.Pre_finite_inputs.S1x2048x16 .f32) (r t : FVec Ideal Cert.Pre_finite_inputs.S3 .f32)
    (h : Cert.Pre_finite_inputs.fn (F := Ideal) x r t = fun _ => 1#1) (i : Cert.Pre_finite_inputs.S1x2048x16.Idx) : ∃ a : ℝ, x i = (a : EReal) := by
  have h0 := congrFun h ix0
  dsimp only [Cert.Pre_finite_inputs.fn] at h0
  obtain ⟨h1, -⟩ := IntOp.andi_eq_one.1 h0
  obtain ⟨h2, -⟩ := IntOp.andi_eq_one.1 h1
  have h3 := Host.reduce_andi_all _ _ _ _ _ h2 i
  have h4 : Ideal.cmp .olt (max (x i) (-(x i))) (Ideal.ofBits .f32 0x7F800000#32) = 1#1 := h3
  unfold Ideal.cmp at h4
  have h5 : max (x i) (-(x i)) < Ideal.ofBits .f32 0x7F800000#32 := of_decide_eq_true (ofBool_eq_one.1 h4)
  rw [pos_inf] at h5
  exact real_of_abs_lt_top (x i) h5

end Cert.Finite

end
-- ==== Proof.HostPre.lean ====
/-
  The four arrays the kernel's windows stage, as the region finds them, read back to the arguments.

  Before the region the program drops `x`'s leading unit axis (the row operand: entry `(i, l)` is `x[0, i, l]`), repeats
  each node four times and transposes (the right operand: entry `(l, 4j + k)` is `x[0, j, l]`), and lays the radii and
  the temperatures out per lane: the 4-vector `(r₀, r₀, r₁, r₂)` tiled 2048 times, so that lane `4j + k` holds `r₀` at
  `k = 0` and `r_{k−1}` otherwise. Each is a chain of layout operations (reshape, broadcast, transpose, slice,
  concatenate), read at one index by following the row-major position through the reshapes.
-/
import proofs.«177336_g91164975825054_cont_sun_m_1275_4_alg».proof.Proof.Gen.KernelIdeal.Frame
import Idealize.ShloMosaic.Lib.StableHlo.Run
import Idealize.ShloMosaic.Lib.Pipeline.Value
import Idealize.ShloMosaic.Lib.ValueIdx

noncomputable section

namespace Cert.KernelIdeal.HostPre

open Cert.KernelIdeal Idealize.ShloMosaic Idealize.ShloMosaic.TcCoe Idealize.ShloMosaic.ValueIdx Idealize.SL.Sem Idealize.ShloMosaic.StableHlo

variable [Facts]
open Facts₀ Facts

/-- Lane `4j + k` of the 8192. -/
def lane (j : Fin 2048) (k : Fin 4) : Fin 8192 := ⟨4 * j.val + k.val, by have := j.isLt; have := k.isLt; omega⟩

/-! ## The host operations' terms -/

/-- `x` without its leading unit axis. -/
def rows (X : FVec Ideal S1x2048x16 .f32) : FVec Ideal S2048x16 .f32 :=
  shapeCast S2048x16 X shapeCasts_S1x2048x16_S2048x16

/-- Each node repeated four times along a new axis, flattened and transposed. -/
def cols (X : FVec Ideal S1x2048x16 .f32) : FVec Ideal S16x8192 .f32 :=
  transpose S16x8192 [1, 0]
    (shapeCast S8192x16 (broadcastInDim S2048x4x16 ![0, 1, 2] bcast_S2048x1x16_S2048x4x16_0_1_2
      (broadcastInDim S2048x1x16 ![0, 2] bcast_S2048x16_S2048x1x16_0_2 (rows X))) shapeCasts_S2048x4x16_S8192x16)
    transposes_S8192x16_S16x8192_1_0

/-- A 3-vector with its first entry repeated in front, tiled 2048 times along the lanes. -/
def lanes (R : FVec Ideal S3 .f32) : FVec Ideal S1x8192 .f32 :=
  broadcastInDim S1x8192 ![1] bcast_S8192_S1x8192_1
    (shapeCast S8192 (broadcastInDim S2048x4 ![0, 1] bcast_S1x4_S2048x4_0_1
      (shapeCast S1x4 (concatenate S4 0 [⟨S1, extractStridedSlice S1 ![0] R slices_S3_S1_0⟩, ⟨S3, R⟩] concatenates_S1_S3_S4_d0)
        shapeCasts_S4_S1x4)) shapeCasts_S2048x4_S8192)

/-! ## The terms at an index -/

theorem rows_at (X : FVec Ideal S1x2048x16 .f32) (i : Fin 2048) (l : Fin 16) : rows X (ix2 i l) = X (ix3 (0 : Fin 1) i l) := by
  unfold rows
  refine shapeCast_apply X shapeCasts_S1x2048x16_S2048x16 (ix2 i l) (ix3 (0 : Fin 1) i l) ?_
  rw [Shape.rowMajor_val_three, Shape.rowMajor_val_two]
  show (0 * 2048 + i.val) * 16 + l.val = i.val * 16 + l.val
  omega

theorem cols_at (X : FVec Ideal S1x2048x16 .f32) (l : Fin 16) (j : Fin 2048) (k : Fin 4) :
    cols X (ix2 l (lane j k)) = X (ix3 (0 : Fin 1) j l) := by
  unfold cols
  refine (transpose_apply [1, 0] _ transposes_S8192x16_S16x8192_1_0 (ix2 l (lane j k)) (ix2 (lane j k) l)
    (fun b => by match b with | ⟨0, _⟩ => rfl | ⟨1, _⟩ => rfl)).trans ?_
  refine (shapeCast_apply _ shapeCasts_S2048x4x16_S8192x16 (ix2 (lane j k) l) (ix3 j k l) ?_).trans ?_
  · rw [Shape.rowMajor_val_three, Shape.rowMajor_val_two]
    show (j.val * 4 + k.val) * 16 + l.val = (4 * j.val + k.val) * 16 + l.val
    omega
  refine (broadcastInDim_apply _ bcast_S2048x1x16_S2048x4x16_0_1_2 _ (ix3 j k l) (ix3 j (0 : Fin 1) l) (fun a => by
    match a with
    | ⟨0, _⟩ => show j.val = if (2048 : Nat) = 1 then 0 else j.val; rw [if_neg (by decide)]
    | ⟨1, _⟩ => show 0 = if (1 : Nat) = 1 then 0 else k.val; rw [if_pos rfl]
    | ⟨2, _⟩ => show l.val = if (16 : Nat) = 1 then 0 else l.val; rw [if_neg (by decide)])).trans ?_
  refine (broadcastInDim_apply _ bcast_S2048x16_S2048x1x16_0_2 _ (ix3 j (0 : Fin 1) l) (ix2 j l) (fun a => by
    match a with
    | ⟨0, _⟩ => show j.val = if (2048 : Nat) = 1 then 0 else j.val; rw [if_neg (by decide)]
    | ⟨1, _⟩ => show l.val = if (16 : Nat) = 1 then 0 else l.val; rw [if_neg (by decide)])).trans ?_
  exact rows_at X j l

/-- The 4-vector `(R₀, R₀, R₁, R₂)` at position `k`. -/
def quad (R : FVec Ideal S3 .f32) (k : Fin 4) : EReal :=
  if h : k.val = 0 then R (ix1 (0 : Fin 3)) else R (ix1 (⟨k.val - 1, by have := k.isLt; omega⟩ : Fin 3))

theorem quad_at (R : FVec Ideal S3 .f32) (k : Fin 4) :
    concatenate S4 0 [⟨S1, extractStridedSlice S1 ![0] R slices_S3_S1_0⟩, ⟨S3, R⟩] concatenates_S1_S3_S4_d0 (ix1 k) = quad R k := by
  unfold quad
  by_cases hk : k.val = 0
  · rw [dif_pos hk]
    refine (concatenate_pair_apply_left (t := S4) (s₁ := S1) (s₂ := S3) _ _ _ _ (ix1 k) rfl (ix1 (0 : Fin 1)) (fun b => ?_)).trans ?_
    · match b with | ⟨0, _⟩ => exact hk.symm
    · exact extractStridedSlice_apply ![0] R slices_S3_S1_0 (ix1 (0 : Fin 1)) (ix1 (0 : Fin 3)) (fun a => by
        match a with | ⟨0, _⟩ => rfl)
  · rw [dif_neg hk]
    refine concatenate_pair_apply_right (t := S4) (s₁ := S1) (s₂ := S3) _ _ _ _ (ix1 k) rfl rfl
      (ix1 (⟨k.val - 1, by have := k.isLt; omega⟩ : Fin 3)) (fun b hb => ?_) ?_
    · match b with | ⟨0, _⟩ => exact absurd rfl hb
    · show k.val - 1 + 1 = k.val
      omega

theorem lanes_at (R : FVec Ideal S3 .f32) (j : Fin 2048) (k : Fin 4) :
    lanes R (ix2 (0 : Fin 1) (lane j k)) = quad R k := by
  unfold lanes
  refine (broadcastInDim_apply _ bcast_S8192_S1x8192_1 _ (ix2 (0 : Fin 1) (lane j k)) (ix1 (lane j k)) (fun a => by
    match a with
    | ⟨0, _⟩ => show (lane j k).val = if (8192 : Nat) = 1 then 0 else (lane j k).val; rw [if_neg (by decide)])).trans ?_
  refine (shapeCast_apply _ shapeCasts_S2048x4_S8192 (ix1 (lane j k)) (ix2 j k) ?_).trans ?_
  · rw [Shape.rowMajor_val_two, Shape.rowMajor_val_one]
    show j.val * 4 + k.val = 4 * j.val + k.val
    omega
  refine (broadcastInDim_apply _ bcast_S1x4_S2048x4_0_1 _ (ix2 j k) (ix2 (0 : Fin 1) k) (fun a => by
    match a with
    | ⟨0, _⟩ => show 0 = if (1 : Nat) = 1 then 0 else j.val; rw [if_pos rfl]
    | ⟨1, _⟩ => show k.val = if (4 : Nat) = 1 then 0 else k.val; rw [if_neg (by decide)])).trans ?_
  refine (shapeCast_apply _ shapeCasts_S4_S1x4 (ix2 (0 : Fin 1) k) (ix1 k) ?_).trans ?_
  · rw [Shape.rowMajor_val_one, Shape.rowMajor_val_two]
    show k.val = 0 * 4 + k.val
    omega
  exact quad_at R k

/-! ## The windows' arrays are those terms -/

variable (m : (ℓ : Loc nD τ sig) → Buf (Elt Ideal) ℓ)

theorem V_rows (c : Dev nD) :
    (Gen.V m c main_call0_v0 : FVec Ideal S2048x16 .f32) = rows (m ((c : Thread nD τ).loc main_arg0)) := by
  show StableHlo.after Gen.hostOps0 (fun b => m (c, b)) (Proc.devRef .tc main_call0_v0) = _
  after_results
  rfl

theorem V_cols (c : Dev nD) :
    (Gen.V m c main_call0_v4 : FVec Ideal S16x8192 .f32) = cols (m ((c : Thread nD τ).loc main_arg0)) := by
  show StableHlo.after Gen.hostOps0 (fun b => m (c, b)) (Proc.devRef .tc main_call0_v4) = _
  after_results
  rfl

theorem V_radii (c : Dev nD) :
    (Gen.V m c main_call0_v10 : FVec Ideal S1x8192 .f32) = lanes (m ((c : Thread nD τ).loc main_arg1)) := by
  show StableHlo.after Gen.hostOps0 (fun b => m (c, b)) (Proc.devRef .tc main_call0_v10) = _
  after_results
  rfl

theorem V_temps (c : Dev nD) :
    (Gen.V m c main_call0_v16 : FVec Ideal S1x8192 .f32) = lanes (m ((c : Thread nD τ).loc main_arg2)) := by
  show StableHlo.after Gen.hostOps0 (fun b => m (c, b)) (Proc.devRef .tc main_call0_v16) = _
  after_results
  rfl

end Cert.KernelIdeal.HostPre

end
-- ==== Proof.KernelCell.lean ====
/-
  The kernel's output, one entry at a time, as scalar functions of the four arrays its windows stage.

  For a row `a` and a column `b` of 16 coordinates the body's squared distance is
      d2 a b = Σ_l (a_l · (−2)) · b_l + (Σ_l a_l² + c₂ Σ_l a_l) + ((Σ_l b_l² − c₂ Σ_l b_l) + c₃),
  `c₂` the word for 2e-6 and `c₃` the named constant; the lane's Fermi–Dirac value is `1 / (exp ((√(max d2 0) − r) · t) + 1)`;
  and the entry at row `i`, lane `q` is, on lanes that are multiples of 4, one minus the largest of the three following
  lanes' values, and the lane's own value elsewhere.
-/
import proofs.«177336_g91164975825054_cont_sun_m_1275_4_alg».proof.KernelIdeal
import Idealize.ShloMosaic.PureOps.Ideal
import Idealize.ShloMosaic.Lib.ValueIdx

noncomputable section

open scoped BigOperators

namespace Cert.KernelIdeal.Cell

open Cert.KernelIdeal Idealize.ShloMosaic Idealize.ShloMosaic.ValueIdx

/-- The body's squared distance of a row `a` and a column `b` of 16 coordinates, as the body groups it: the cross terms,
    the row's term, the column's term with the constant. -/
def d2 (a b : Fin 16 → EReal) : EReal :=
  ((∑ l : Fin 16, (a l * Ideal.ofBits .f32 0xC0000000#32) * b l)
    + ((∑ l : Fin 16, a l * a l) + Ideal.ofBits .f32 0x360637BD#32 * ∑ l : Fin 16, a l))
  + (((∑ l : Fin 16, b l * b l) - Ideal.ofBits .f32 0x360637BD#32 * ∑ l : Fin 16, b l)
      + Named.named (F := Ideal) κ "d_eps_sq" (φ := .f32) 0x2D8CBCCC#32)

/-- The exponential `exp ((√(max d2 0) − r) · t)` of a row, a column, a radius and a temperature. -/
def expo (a b : Fin 16 → EReal) (r t : EReal) : EReal :=
  Ideal.exp ((Ideal.sqrt (max (d2 a b) (Ideal.ofBits .f32 0x00000000#32)) - r) * t)

/-- The Fermi–Dirac value the body forms from the exponential `e`. -/
def fd (e : EReal) : EReal := Ideal.div (Ideal.ofBits .f32 0x3F800000#32) (e + Ideal.ofBits .f32 0x3F800000#32)

/-- The lane `d` further on, around the end. -/
def nxt (q : Fin 8192) (d : Nat) : Fin 8192 := ⟨(q.val + d) % 8192, Nat.mod_lt _ (by decide)⟩

/-- The Fermi–Dirac value at row `i`, lane `q` of the four whole arrays: row `i` of the row operand against column `q` of
    the right operand, with lane `q`'s radius and temperature. -/
def lanev (A0 : FVec Ideal S2048x16 .f32) (A1 : FVec Ideal S16x8192 .f32) (A2 A3 : FVec Ideal S1x8192 .f32)
    (i : Fin 2048) (q : Fin 8192) : EReal :=
  fd (expo (fun l => A0 (ix2 i l)) (fun l => A1 (ix2 l q)) (A2 (ix2 (0 : Fin 1) q)) (A3 (ix2 (0 : Fin 1) q)))

/-- The stored value at row `i`, lane `q`. -/
def cell (A0 : FVec Ideal S2048x16 .f32) (A1 : FVec Ideal S16x8192 .f32) (A2 A3 : FVec Ideal S1x8192 .f32)
    (i : Fin 2048) (q : Fin 8192) : EReal :=
  Scalar.select (IntOp.cmpi .eq (IntOp.andi (BitVec.ofNat 32 q.val) 3#32) 0#32)
    (Ideal.ofBits .f32 0x3F800000#32
      - max (lanev A0 A1 A2 A3 i (nxt q 1)) (max (lanev A0 A1 A2 A3 i (nxt q 2)) (lanev A0 A1 A2 A3 i (nxt q 3))))
    (lanev A0 A1 A2 A3 i q)

/-- Which lanes the mask selects: lane `q` takes the first branch exactly when `q` is a multiple of 4. -/
theorem lane_mask : ∀ q : Fin 8192,
    IntOp.cmpi .eq (IntOp.andi (BitVec.ofNat 32 q.val) 3#32) 0#32 = if q.val % 4 = 0 then 1#1 else 0#1 := by
  decide +kernel

end Cert.KernelIdeal.Cell

end
-- ==== Proof.KernelPay.lean ====
/-
  The kernel body's arithmetic at one entry of its output block.

  At row `p` (of 64) and lane `q` (of 8192) of a block, with `a = ` row `p` of the row block, `b = ` column `q` of the
  expanded right operand, the body forms
      d2 = Σ_l (a_l · (−2)) · b_l + (Σ_l a_l² + c₂ Σ_l a_l) + ((Σ_l b_l² − c₂ Σ_l b_l) + c₃)
  (a matrix product into a zero accumulator, two lane sums over the 16 coordinates of the row, two sublane sums over the
  16 coordinates of the column, each sum read as a plain `Σ` at the ideal values), clamps it at 0, and takes the
  Fermi–Dirac value `1 / (exp ((√d2 − r_q) · t_q) + 1)` with the per-lane radius and temperature rows. The stored value
  selects, on lanes whose index is a multiple of 4, one minus the largest of the three following lanes (three lane
  rotations by 8191, 8190, 8189, i.e. reads of lanes q+1, q+2, q+3) and the Fermi–Dirac value itself elsewhere.
-/
import proofs.«177336_g91164975825054_cont_sun_m_1275_4_alg».proof.Proof.Gen.KernelIdeal.Skeleton
import proofs.«177336_g91164975825054_cont_sun_m_1275_4_alg».proof.Proof.KernelCell
import Idealize.ShloMosaic.Lib.ValueIdx
import Idealize.ShloMosaic.Lib.Pipeline.Value
import Idealize.ShloMosaic.Lib.KernelVsHost
import Idealize.ShloMosaic.PureOps.Ideal.Laws

noncomputable section

open scoped BigOperators

namespace Cert.KernelIdeal.Pay

open Cert.KernelIdeal Cert.KernelIdeal.Cell Idealize.ShloMosaic Idealize.ShloMosaic.TcCoe Idealize.ShloMosaic.ValueIdx

variable [Facts]
open Facts₀ Facts

/-! ## The non-pointwise operations at an entry -/

/-- A row's lane sum, kept as a column: at `(p, 0)` the sum of row `p`'s 16 entries. -/
theorem rowSum_at (v : FVec Ideal S64x16 .f32) (p : Fin 64) (h : S64x16.Reduces [1] S64)
    (hφ : FKind.Formats FTy.f32) (hacc : @Eq (BitVec FTy.f32.bits) (BitVec.ofNat 32 0) (BitVec.ofNat 32 0)) (hc : S64.ShapeCasts S64x1) :
    shapeCast S64x1 (multiReduction .add [1] S64 v 0x00000000#32 h hφ hacc) hc (ix2 p (0 : Fin 1))
      = ∑ l : Fin 16, v (ix2 p l) := by
  refine (shapeCast_apply _ hc (ix2 p (0 : Fin 1)) (ix1 p) ?_).trans ?_
  · rw [Shape.rowMajor_val_one, Shape.rowMajor_val_two]; show p.val = p.val * 1 + 0; omega
  · refine (Ideal.multiReduction_add_single v 0x00000000#32 h hφ hacc (ix1 p)).trans ?_
    exact Finset.sum_congr rfl fun l _ => congrArg v (funext fun a => Fin.ext (by match a with | ⟨0, _⟩ => rfl | ⟨1, _⟩ => rfl))

/-- A column's sublane sum, kept as a row: at `(0, q)` the sum of column `q`'s 16 entries. -/
theorem colSum_at (w : FVec Ideal S16x8192 .f32) (q : Fin 8192) (h : S16x8192.Reduces [0] S8192)
    (hφ : FKind.Formats FTy.f32) (hacc : @Eq (BitVec FTy.f32.bits) (BitVec.ofNat 32 0) (BitVec.ofNat 32 0)) (hc : S8192.ShapeCasts S1x8192) :
    shapeCast S1x8192 (multiReduction .add [0] S8192 w 0x00000000#32 h hφ hacc) hc (ix2 (0 : Fin 1) q)
      = ∑ l : Fin 16, w (ix2 l q) := by
  refine (shapeCast_apply _ hc (ix2 (0 : Fin 1) q) (ix1 q) ?_).trans ?_
  · rw [Shape.rowMajor_val_one, Shape.rowMajor_val_two]; show q.val = 0 * 8192 + q.val; omega
  · refine (Ideal.multiReduction_add_single w 0x00000000#32 h hφ hacc (ix1 q)).trans ?_
    exact Finset.sum_congr rfl fun l _ => congrArg w (funext fun a => Fin.ext (by match a with | ⟨0, _⟩ => rfl | ⟨1, _⟩ => rfl))

/-- A column broadcast along the lanes reads its row's entry. -/
theorem bcastCol_at (u : FVec Ideal S64x1 .f32) (p : Fin 64) (q : Fin 8192) :
    broadcastTo S64x8192 u broadcasts_S64x1_S64x8192 (ix2 p q) = u (ix2 p (0 : Fin 1)) :=
  broadcastTo_apply u broadcasts_S64x1_S64x8192 (ix2 p q) (ix2 p (0 : Fin 1)) (fun a => by
    match a with
    | ⟨0, _⟩ => show p.val = if (64 : Nat) = 1 then 0 else p.val; rw [if_neg (by decide)]
    | ⟨1, _⟩ => show 0 = if (1 : Nat) = 1 then 0 else q.val; rw [if_pos rfl])

/-- A row broadcast down the sublanes reads its lane's entry. -/
theorem bcastRow_at (u : FVec Ideal S1x8192 .f32) (p : Fin 64) (q : Fin 8192) :
    broadcastTo S64x8192 u broadcasts_S1x8192_S64x8192 (ix2 p q) = u (ix2 (0 : Fin 1) q) :=
  broadcastTo_apply u broadcasts_S1x8192_S64x8192 (ix2 p q) (ix2 (0 : Fin 1) q) (fun a => by
    match a with
    | ⟨0, _⟩ => show 0 = if (1 : Nat) = 1 then 0 else p.val; rw [if_pos rfl]
    | ⟨1, _⟩ => show q.val = if (8192 : Nat) = 1 then 0 else q.val; rw [if_neg (by decide)])

/-- The matrix product into a zero accumulator: at `(p, q)` the sum over the 16 contracted coordinates. -/
theorem matmul_at (lhs : FVec Ideal S64x16 .f32) (rhs : FVec Ideal S16x8192 .f32) (p : Fin 64) (q : Fin 8192) :
    matmul dot_S64x16_S16x8192_S64x8192_1_0_0_1_n_n (some .fp32) lhs rhs (constant S64x8192 .f32 0x00000000#32) (ix2 p q)
      = ∑ l : Fin 16, lhs (ix2 p l) * rhs (ix2 l q) := by
  show FloatOps.matmul dot_S64x16_S16x8192_S64x8192_1_0_0_1_n_n (some .fp32) lhs rhs (constant S64x8192 .f32 0x00000000#32) (ix2 p q) = _
  rw [Ideal.matmul_constant_zero_apply, ← Equiv.sum_comp (contrEquiv1 dot_S64x16_S16x8192_S64x8192_1_0_0_1_n_n 16 rfl rfl).symm]
  refine Finset.sum_congr rfl fun l _ => ?_
  have c2 := contrEquiv1_symm_val dot_S64x16_S16x8192_S64x8192_1_0_0_1_n_n 16 rfl rfl l
  have l2 : dot_S64x16_S16x8192_S64x8192_1_0_0_1_n_n.lhsIdx (ix2 p q) ((contrEquiv1 _ 16 rfl rfl).symm l) = ix2 p l := by
    funext ax; apply Fin.ext
    match ax with
    | ⟨0, _⟩ => simp [DotDims.lhsIdx, dot_S64x16_S16x8192_S64x8192_1_0_0_1_n_n]; rfl
    | ⟨1, _⟩ => simp [DotDims.lhsIdx, dot_S64x16_S16x8192_S64x8192_1_0_0_1_n_n]; exact c2
  have r2 : dot_S64x16_S16x8192_S64x8192_1_0_0_1_n_n.rhsIdx (ix2 p q) ((contrEquiv1 _ 16 rfl rfl).symm l) = ix2 l q := by
    funext ax; apply Fin.ext
    match ax with
    | ⟨0, _⟩ => simp [DotDims.rhsIdx, dot_S64x16_S16x8192_S64x8192_1_0_0_1_n_n]; exact c2
    | ⟨1, _⟩ => simp [DotDims.rhsIdx, dot_S64x16_S16x8192_S64x8192_1_0_0_1_n_n]; rfl
  rw [l2, r2]

/-- A lane rotation by `s` reads the lane `8192 − s` further on, around the end. -/
theorem rot_at (x : FVec Ideal S64x8192 .f32) (sb : BitVec 32) (s : Nat) (hs : sb.toNat = s) (hs' : s < 8192) (p : Fin 64)
    (q q' : Fin 8192) (hq : q'.val = (q.val + (8192 - s)) % 8192) :
    dynamicRotate 1 sb none x rotates_S64x8192_d1 (ix2 p q) = x (ix2 p q') :=
  dynamicRotate_apply 1 sb x rotates_S64x8192_d1 (ix2 p q) (ix2 p q') (fun b => by
    match b with
    | ⟨0, hb⟩ => rw [if_neg (fun e => absurd (show (0 : Nat) = 1 from congrArg Fin.val e) (by decide))]
    | ⟨1, hb⟩ =>
      rw [if_pos (show (⟨1, hb⟩ : Fin S64x8192.rank) = 1 from rfl)]
      show q'.val = (q.val + 8192 - sb.toNat % 8192) % 8192
      rw [hs, hq, Nat.mod_eq_of_lt hs']; omega)

/-! ## The squared distance and the mask, for arbitrary blocks -/

/-- The exponential and the square root of a block are taken entry by entry. -/
theorem exp_at {s : Shape} {φ : FTy} (a : FVec Ideal s φ) (i : s.Idx) : exp a i = Ideal.exp (a i) := rfl
theorem sqrt_at {s : Shape} {φ : FTy} (a : FVec Ideal s φ) (i : s.Idx) : sqrt a i = Ideal.sqrt (a i) := rfl

/-- The exponential the first part of the body returns, at `(p, q)`: row `p` of the row block against column `q` of the
    right operand, with lane `q`'s radius and temperature. -/
theorem pay2_at (x0 : Vec Ideal S64x16 .f32) (x1 : Vec Ideal S16x8192 .f32) (x2 x3 : Vec Ideal S1x8192 .f32) (p : Fin 64) (q : Fin 8192) :
    Gen.k0_pay2 (F := Ideal) x0 x1 x2 x3 (ix2 p q)
      = expo (fun l => x0 (ix2 p l)) (fun l => x1 (ix2 l q)) (x2 (ix2 (0 : Fin 1) q)) (x3 (ix2 (0 : Fin 1) q)) := by
  unfold Gen.k0_pay2 expo d2
  simp only [shapeCast_self]
  simp only [exp_at, sqrt_at, mulf_apply, subf_apply, addf_apply, maximumf_apply, broadcast_apply, matmul_at, bcastCol_at, bcastRow_at]
  -- what is left differs from `d2` only in the two lane sums and the two sublane sums
  refine congrArg Ideal.exp (congrArg₂ (· * ·) (congrArg₂ (· - ·) (congrArg Ideal.sqrt (congrArg₂ max ?_ rfl)) rfl) rfl)
  refine congrArg₂ (· + ·) (congrArg₂ (· + ·) rfl (congrArg₂ (· + ·) ?_ (congrArg₂ (· * ·) rfl ?_)))
    (congrArg₂ (· + ·) (congrArg₂ (· - ·) ?_ (congrArg₂ (· * ·) rfl ?_)) rfl)
  · exact rowSum_at (mulf x0 x0) p _ _ _ _
  · exact rowSum_at x0 p _ _ _ _
  · exact colSum_at (mulf x1 x1) q _ _ _ _
  · exact colSum_at x1 q _ _ _ _

/-- The stored value at `(p, q)` from the Fermi–Dirac values `V` of the block: the mask's two branches, the three
    following lanes named. -/
theorem mask_at (V : FVec Ideal S64x8192 .f32) (p : Fin 64) (q q1 q2 q3 : Fin 8192)
    (h1 : q1.val = (q.val + 1) % 8192) (h2 : q2.val = (q.val + 2) % 8192) (h3 : q3.val = (q.val + 3) % 8192) :
    select (cmpi .eq (andi (iota .tc S64x8192 32 [1] iota_S64x8192_d1_w32) (broadcast S64x8192 3#32)) (broadcast S64x8192 0#32))
        (subf (broadcast S64x8192 (Scalar.ofBits .f32 0x3F800000#32))
          (maximumf (dynamicRotate 1 8191#32 none V rotates_S64x8192_d1)
            (maximumf (dynamicRotate 1 8190#32 none V rotates_S64x8192_d1) (dynamicRotate 1 8189#32 none V rotates_S64x8192_d1))))
        V (ix2 p q)
      = Scalar.select (IntOp.cmpi .eq (IntOp.andi (BitVec.ofNat 32 q.val) 3#32) 0#32)
          (Ideal.ofBits .f32 0x3F800000#32 - max (V (ix2 p q1)) (max (V (ix2 p q2)) (V (ix2 p q3))))
          (V (ix2 p q)) := by
  show Scalar.select (IntOp.cmpi .eq (IntOp.andi (iota .tc S64x8192 32 [1] iota_S64x8192_d1_w32 (ix2 p q)) 3#32) 0#32)
      (Ideal.ofBits .f32 0x3F800000#32 - max (dynamicRotate 1 8191#32 none V rotates_S64x8192_d1 (ix2 p q))
        (max (dynamicRotate 1 8190#32 none V rotates_S64x8192_d1 (ix2 p q)) (dynamicRotate 1 8189#32 none V rotates_S64x8192_d1 (ix2 p q))))
      (V (ix2 p q)) = _
  rw [iota_single_apply, rot_at V 8191#32 8191 rfl (by omega) p q q1 (by omega), rot_at V 8190#32 8190 rfl (by omega) p q q2 (by omega),
    rot_at V 8189#32 8189 rfl (by omega) p q q3 (by omega)]

/-- The stored value at `(p, q)` from the exponentials `v40`. -/
theorem pay1_at (v40 : FVec Ideal S64x8192 .f32) (p : Fin 64) (q q1 q2 q3 : Fin 8192)
    (h1 : q1.val = (q.val + 1) % 8192) (h2 : q2.val = (q.val + 2) % 8192) (h3 : q3.val = (q.val + 3) % 8192) :
    Gen.k0_pay1 (F := Ideal) v40 (ix2 p q)
      = Scalar.select (IntOp.cmpi .eq (IntOp.andi (BitVec.ofNat 32 q.val) 3#32) 0#32)
          (Ideal.ofBits .f32 0x3F800000#32 - max (fd (v40 (ix2 p q1))) (max (fd (v40 (ix2 p q2))) (fd (v40 (ix2 p q3)))))
          (fd (v40 (ix2 p q))) := by
  unfold Gen.k0_pay1
  exact mask_at _ p q q1 q2 q3 h1 h2 h3

/-- The stored value at `(p, q)` of a block, from the four input blocks: the entry's two branches over the lane values. -/
theorem out_at (x0 : Vec Ideal S64x16 .f32) (x1 : Vec Ideal S16x8192 .f32) (x2 x3 : Vec Ideal S1x8192 .f32) (p : Fin 64) (q : Fin 8192) :
    Gen.k0_pay1 (F := Ideal) (Gen.k0_pay2 (F := Ideal) x0 x1 x2 x3) (ix2 p q)
      = Scalar.select (IntOp.cmpi .eq (IntOp.andi (BitVec.ofNat 32 q.val) 3#32) 0#32)
          (Ideal.ofBits .f32 0x3F800000#32
            - max (fd (expo (fun l => x0 (ix2 p l)) (fun l => x1 (ix2 l (nxt q 1))) (x2 (ix2 (0 : Fin 1) (nxt q 1))) (x3 (ix2 (0 : Fin 1) (nxt q 1)))))
                (max (fd (expo (fun l => x0 (ix2 p l)) (fun l => x1 (ix2 l (nxt q 2))) (x2 (ix2 (0 : Fin 1) (nxt q 2))) (x3 (ix2 (0 : Fin 1) (nxt q 2)))))
                  (fd (expo (fun l => x0 (ix2 p l)) (fun l => x1 (ix2 l (nxt q 3))) (x2 (ix2 (0 : Fin 1) (nxt q 3))) (x3 (ix2 (0 : Fin 1) (nxt q 3)))))))
          (fd (expo (fun l => x0 (ix2 p l)) (fun l => x1 (ix2 l q)) (x2 (ix2 (0 : Fin 1) q)) (x3 (ix2 (0 : Fin 1) q)))) := by
  rw [pay1_at _ p q (nxt q 1) (nxt q 2) (nxt q 3) rfl rfl rfl, pay2_at, pay2_at, pay2_at, pay2_at]

end Cert.KernelIdeal.Pay

end
-- ==== Proof.KernelValue.lean ====
/-
  The kernel's result array, and @main's result after the final reshape, as one function of the arguments.

  Grid point `t` (of 32) stages rows `64t … 64t + 63` of the row operand and the whole of the other three arrays, and
  writes back rows `64t … 64t + 63` of the 2048 × 8192 output. What it writes at row `p`, lane `q` of its block is the
  entry function `cell` of the four WHOLE arrays at row `64t + p`, lane `q`: the row block's row `p` is the array's row
  `64t + p`, and the other three blocks are their arrays. The 32 blocks tile the output (row `r` lies in block `r / 64`), so
  after the run the output array is `cell` at every index; the program's result is that array reshaped to
  1 × 2048 × 2048 × 4, entry `(0, i, j, k)` being the array's entry at row `i`, lane `4j + k`.
-/
import proofs.«177336_g91164975825054_cont_sun_m_1275_4_alg».proof.Proof.Gen.KernelIdeal.Frame
import proofs.«177336_g91164975825054_cont_sun_m_1275_4_alg».proof.Proof.KernelPay
import Idealize.ShloMosaic.Lib.Pipeline.Value
import Idealize.ShloMosaic.Lib.StableHlo.Run
import Idealize.ShloMosaic.Lib.ValueIdx

set_option maxRecDepth 16384

noncomputable section

namespace Cert.KernelIdeal.KValue

open Cert.KernelIdeal Cert.KernelIdeal.Cell Idealize.ShloMosaic Idealize.ShloMosaic.TcCoe Idealize.ShloMosaic.ValueIdx
open Idealize.SL.Sem Idealize.ShloMosaic.StableHlo
open Idealize.ShloMosaic.Pipeline (Dat Cfg Window)

variable [Facts]
open Facts₀ Facts

variable (m : (ℓ : Loc nD τ sig) → Buf (Elt Ideal) ℓ) (ρ : Dev nD → PrngReg)

/-- The output array as one function of the four staged arrays: `cell` at the index's row and lane. -/
def G (A0 : FVec Ideal S2048x16 .f32) (A1 : FVec Ideal S16x8192 .f32) (A2 A3 : FVec Ideal S1x8192 .f32) : S2048x8192.Idx → EReal :=
  fun idx => cell A0 A1 A2 A3 ⟨(idx 0).val, idx2_lt0 idx⟩ ⟨(idx 1).val, idx2_lt1 idx⟩

theorem hz : (![0, 0] : Fin 2 → Nat) = fun _ => 0 := funext fun a => by fin_cases a <;> rfl

/-- The printed index maps over the 32 grid points: the row operand's block moves with the output's along the rows, every
    other block index is 0, and the output's row block index stays below 32. -/
theorem idx_facts : ∀ t : Fin cfg0.N, win0_0.index t (0 : Fin 2) = win0_4.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (1 : Fin 2) = 0 ∧ win0_4.index t (0 : Fin 2) ≤ 31 :=
  (by decide +kernel : ∀ t : Fin grid0.N, _)

/-- Every row block of the output is some point's. -/
theorem idx_onto : ∀ q0 : Fin 32, ∃ t : Fin cfg0.N, win0_4.index t = ![q0.val, 0] :=
  (by decide +kernel : ∀ q0 : Fin 32, ∃ t : Fin grid0.N, win0_4.index t = ![q0.val, 0])

/-- What point `t` writes back is block `t` of `G` of the four arrays as the region finds them. -/
theorem flushed_eq (c : Dev nD) (t : Fin cfg0.N) :
    (Gen.dats m 0 c).flushed 4 t = ((cfg0.win 4).blk t).view.read (Elt Ideal)
      (G (Gen.V m c main_call0_v0) (Gen.V m c main_call0_v4) (Gen.V m c main_call0_v10) (Gen.V m c main_call0_v16)) := by
  show (cfg0.win 4).cut (grid0.coords t) ((Gen.dats m 0 c).after 4 t) = _
  rw [Gen.after0_4]
  unfold Gen.out0_4
  rw [View.canon_unit_zero hz]
  simp only [View.ld_unit_zero (S := S64x16) hz, View.ld_unit_zero (S := S16x8192) hz, View.ld_unit_zero (S := S1x8192) hz]
  obtain ⟨e0, e1, e2, e3, e4, e5, e6, e7, e8, e9⟩ := idx_facts t
  refine funext fun (y : S64x8192.Idx) => ?_
  obtain ⟨p, q, rfl⟩ : ∃ (p : Fin 64) (q : Fin 8192), y = ix2 p q := ⟨y 0, y 1, eq_ix2 y⟩
  have hp : p.val < 64 := p.isLt
  -- the array row this block row is
  let I : Fin 2048 := ⟨win0_4.index t (0 : Fin 2) * 64 + p.val, by omega⟩
  have hout : ((cfg0.win 4).blk t).view.emb (ix2 p q) = ix2 I q := by
    funext a; apply Fin.ext
    match a with
    | ⟨0, _⟩ => show win0_4.index t (0 : Fin 2) * 64 + 1 * p.val = win0_4.index t (0 : Fin 2) * 64 + p.val; omega
    | ⟨1, _⟩ => show win0_4.index t (1 : Fin 2) * 8192 + 1 * q.val = q.val; omega
  have h0 : ∀ l : Fin 16, Gen.iblk m c 0 t (ix2 p l) = Gen.V m c main_call0_v0 (ix2 I l) := fun l => by
    show Gen.V m c main_call0_v0 (((cfg0.win 0).blk t).view.emb (ix2 p l)) = _
    refine congrArg (Gen.V m c main_call0_v0) (funext fun a => Fin.ext ?_)
    match a with
    | ⟨0, _⟩ => show win0_0.index t (0 : Fin 2) * 64 + 1 * p.val = win0_4.index t (0 : Fin 2) * 64 + p.val; omega
    | ⟨1, _⟩ => show win0_0.index t (1 : Fin 2) * 16 + 1 * l.val = l.val; omega
  have h1 : ∀ (l : Fin 16) (q' : Fin 8192), Gen.iblk m c 1 t (ix2 l q') = Gen.V m c main_call0_v4 (ix2 l q') := fun l q' => by
    show Gen.V m c main_call0_v4 (((cfg0.win 1).blk t).view.emb (ix2 l q')) = _
    refine congrArg (Gen.V m c main_call0_v4) (funext fun a => Fin.ext ?_)
    match a with
    | ⟨0, _⟩ => show win0_1.index t (0 : Fin 2) * 16 + 1 * l.val = l.val; omega
    | ⟨1, _⟩ => show win0_1.index t (1 : Fin 2) * 8192 + 1 * q'.val = q'.val; omega
  have h2 : ∀ q' : Fin 8192, Gen.iblk m c 2 t (ix2 (0 : Fin 1) q') = Gen.V m c main_call0_v10 (ix2 (0 : Fin 1) q') := fun q' => by
    show Gen.V m c main_call0_v10 (((cfg0.win 2).blk t).view.emb (ix2 (0 : Fin 1) q')) = _
    refine congrArg (Gen.V m c main_call0_v10) (funext fun a => Fin.ext ?_)
    match a with
    | ⟨0, _⟩ => show win0_2.index t (0 : Fin 2) * 1 + 1 * 0 = 0; omega
    | ⟨1, _⟩ => show win0_2.index t (1 : Fin 2) * 8192 + 1 * q'.val = q'.val; omega
  have h3 : ∀ q' : Fin 8192, Gen.iblk m c 3 t (ix2 (0 : Fin 1) q') = Gen.V m c main_call0_v16 (ix2 (0 : Fin 1) q') := fun q' => by
    show Gen.V m c main_call0_v16 (((cfg0.win 3).blk t).view.emb (ix2 (0 : Fin 1) q')) = _
    refine congrArg (Gen.V m c main_call0_v16) (funext fun a => Fin.ext ?_)
    match a with
    | ⟨0, _⟩ => show win0_3.index t (0 : Fin 2) * 1 + 1 * 0 = 0; omega
    | ⟨1, _⟩ => show win0_3.index t (1 : Fin 2) * 8192 + 1 * q'.val = q'.val; omega
  show Gen.k0_pay1 (Gen.k0_pay2 (Gen.iblk m c 0 t) (Gen.iblk m c 1 t) (Gen.iblk m c 2 t) (Gen.iblk m c 3 t)) (ix2 p q)
    = G (Gen.V m c main_call0_v0) (Gen.V m c main_call0_v4) (Gen.V m c main_call0_v10) (Gen.V m c main_call0_v16)
        (((cfg0.win 4).blk t).view.emb (ix2 p q))
  rw [hout]
  refine (Pay.out_at (Gen.iblk m c 0 t) (Gen.iblk m c 1 t) (Gen.iblk m c 2 t) (Gen.iblk m c 3 t) p q).trans ?_
  simp only [h0, h1, h2, h3]
  rfl

/-- An index of the output array is in point `t`'s block iff each coordinate is in the block's range on its axis. -/
theorem mem_blk (t : Fin cfg0.N) (i : S2048x8192.Idx) :
    i ∈ ((cfg0.win 4).blk t).view.set ↔ ∀ a : Fin 2, win0_4.index t a * S64x8192.size a ≤ (i a).val ∧ (i a).val < win0_4.index t a * S64x8192.size a + S64x8192.size a := by
  show i ∈ ((View.whole main_call0_v17).slice (win0_4.rect t)).set ↔ _
  rw [View.set_slice_whole, Rect.mem_set_unit]
  exact Iff.rfl

/-- Every index of the output array lies in some point's block: row `r` in the block of point `r / 64`. -/
theorem cover (i : S2048x8192.Idx) : ∃ t : Fin cfg0.N, (cfg0.win 4).flush t = true ∧ i ∈ ((cfg0.win 4).blk t).view.set := by
  have hi0 : (i 0).val < 2048 := (i 0).isLt
  have hi1 : (i 1).val < 8192 := (i 1).isLt
  obtain ⟨t, ht⟩ := idx_onto ⟨(i 0).val / 64, by omega⟩
  have q0 : win0_4.index t (0 : Fin 2) = (i 0).val / 64 := congrFun ht 0
  have q1 : win0_4.index t (1 : Fin 2) = 0 := congrFun ht 1
  refine ⟨t, Gen.flush0_4 t, ?_⟩
  rw [mem_blk]
  intro a
  match a with
  | ⟨0, _⟩ => show win0_4.index t (0 : Fin 2) * 64 ≤ (i 0).val ∧ (i 0).val < win0_4.index t (0 : Fin 2) * 64 + 64; omega
  | ⟨1, _⟩ => show win0_4.index t (1 : Fin 2) * 8192 ≤ (i 1).val ∧ (i 1).val < win0_4.index t (1 : Fin 2) * 8192 + 8192; omega

/-- The output array after the run is `G` of the four arrays as the region finds them. -/
theorem final (c : Dev nD) : (Gen.dats m 0 c).arrAt 4 cfg0.N
    = G (Gen.V m c main_call0_v0) (Gen.V m c main_call0_v4) (Gen.V m c main_call0_v10) (Gen.V m c main_call0_v16) :=
  (Gen.dats m 0 c).arrAt_eq_of_cover 4 _ (fun t _ => flushed_eq m c t) cover

/-- @main's result after the lines that follow the region: the output array reshaped. -/
theorem tail_eq (c : Dev nD) :
    Pipeline.afterTail₀ cfgs (Gen.dats m) 0 (Gen.V0 m) [Gen.hostOps1] c main_v0
      = shapeCast S1x2048x2048x4 (G (Gen.V m c main_call0_v0) (Gen.V m c main_call0_v4) (Gen.V m c main_call0_v10) (Gen.V m c main_call0_v16))
          shapeCasts_S2048x8192_S1x2048x2048x4 := by
  have hw : Pipeline.withArrays (cfgs (0 : Fin 1)).spec c (Gen.V0 m c) (fun w => (Gen.dats m 0 c).arrAt w (cfgs (0 : Fin 1)).N)
      (Proc.devRef .tc main_call0_v17)
      = G (Gen.V m c main_call0_v0) (Gen.V m c main_call0_v4) (Gen.V m c main_call0_v10) (Gen.V m c main_call0_v16) :=
    (Pipeline.withArrays_arr spec0 Gen.launch0.win.arr_inj c _ _ 4).trans (final m c)
  unfold Pipeline.afterTail₀
  show StableHlo.after Gen.hostOps1 _ (Proc.devRef .tc main_v0) = _
  after_results
  rw [hw]
  rfl

/-- The kernel program's run with its result named: every weakly fair execution terminates with the result at the
    reshaped `G` and the arguments unchanged. -/
theorem run : θ_run defs (onTc (τ := τ) (main (F := Ideal))) ⟨m, fun _ => 0, ρ⟩ (fun r => ∀ c : Dev nD,
      r.2.mem ((c.tc : Thread nD τ).loc main_v0)
        = shapeCast S1x2048x2048x4 (G (Gen.V m c main_call0_v0) (Gen.V m c main_call0_v4) (Gen.V m c main_call0_v10) (Gen.V m c main_call0_v16))
            shapeCasts_S2048x8192_S1x2048x2048x4
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v0 (Pipeline.mem_restRefs_of main_v0 (by decide) (by decide))).trans (tail_eq m c),
     ((h c).2 main_arg0 (Pipeline.mem_restRefs_of main_arg0 (by decide) (by decide))).trans (Gen.W_main_arg0 m (Gen.dats m) c),
     ((h c).2 main_arg1 (Pipeline.mem_restRefs_of main_arg1 (by decide) (by decide))).trans (Gen.W_main_arg1 m (Gen.dats m) c),
     ((h c).2 main_arg2 (Pipeline.mem_restRefs_of main_arg2 (by decide) (by decide))).trans (Gen.W_main_arg2 m (Gen.dats m) c)⟩)
    (Gen.run_main m ρ)

/-- The reshaped array at `(0, i, j, k)` is the array at row `i`, lane `4j + k`. -/
theorem result_at (A0 : FVec Ideal S2048x16 .f32) (A1 : FVec Ideal S16x8192 .f32) (A2 A3 : FVec Ideal S1x8192 .f32)
    (i j : Fin 2048) (k : Fin 4) :
    shapeCast S1x2048x2048x4 (G A0 A1 A2 A3) shapeCasts_S2048x8192_S1x2048x2048x4 (ix4 (0 : Fin 1) i j k)
      = cell A0 A1 A2 A3 i ⟨4 * j.val + k.val, by have := j.isLt; have := k.isLt; omega⟩ := by
  refine (shapeCast_apply _ shapeCasts_S2048x8192_S1x2048x2048x4 (ix4 (0 : Fin 1) i j k)
    (ix2 i (⟨4 * j.val + k.val, by have := j.isLt; have := k.isLt; omega⟩ : Fin 8192)) ?_).trans rfl
  rw [Shape.rowMajor_val_two, Shape.rowMajor_val_four]
  show i.val * 8192 + (4 * j.val + k.val) = ((0 * 2048 + i.val) * 2048 + j.val) * 4 + k.val
  omega

end Cert.KernelIdeal.KValue

end
-- ==== Proof.Consts.lean ====
/-
  The float words the two programs spell, as the extended reals they denote.

  The reference's word for 1e-6 is the dyadic `ε = 8796093 / 2^43`; the kernel's word for 2e-6 has the same mantissa and the
  next exponent, so it is exactly `2 ε`; the kernel's −2.0 is −2 and +0.0 is 0. The kernel's last constant, the word for
  16 · 1e-12, is read by the certificate's table as `16 ε² = 77371252064649 / 2^82` (8796093² = 77371252064649), the last
  term of the expansion of `Σ_l (a_l − b_l + ε)²` over 16 coordinates.
-/
import Idealize.ShloMosaic.PureOps.Ideal
import Idealize.ShloMosaic.PureOps.IdealRules

noncomputable section

namespace Cert.Consts

open Idealize.ShloMosaic

/-- The real number the reference's word for 1e-6 denotes. -/
def epsR : ℝ := 8796093 / 8796093022208

/-- `+0.0` denotes `0`. -/
theorem ofBits_zero : Ideal.ofBits .f32 0x00000000#32 = 0 := by
  simp [Ideal.ofBits, Ideal.ieee]

/-- `−2.0` denotes `−2`. -/
theorem ofBits_neg_two : Ideal.ofBits .f32 0xC0000000#32 = ((-2 : ℝ) : EReal) := by
  simp [Ideal.ofBits, Ideal.ieee, -EReal.coe_mul]; norm_num

/-- The reference's word for 1e-6 denotes `ε`. -/
theorem ofBits_eps : Ideal.ofBits .f32 0x358637BD#32 = ((epsR : ℝ) : EReal) := by
  unfold epsR
  simp [Ideal.ofBits, Ideal.ieee, -EReal.coe_mul]; norm_num

/-- The kernel's word for 2e-6 denotes exactly `2 ε`. -/
theorem ofBits_two_eps : Ideal.ofBits .f32 0x360637BD#32 = ((2 * epsR : ℝ) : EReal) := by
  unfold epsR
  simp [Ideal.ofBits, Ideal.ieee, -EReal.coe_mul]; norm_num

/-- The table's value for the kernel's last constant is `16 ε²`. -/
theorem sixteen_eps_sq : (77371252064649 / 4835703278458516698824704 : ℝ) = 16 * epsR ^ 2 := by
  unfold epsR; norm_num

end Cert.Consts

end
-- ==== Proof.Algebra.lean ====
/-
  The law that joins the two programs: over the reals, for 16 coordinates,
      Σ_l (a_l · (−2)) · b_l + (Σ_l a_l² + 2ε Σ_l a_l) + ((Σ_l b_l² − 2ε Σ_l b_l) + 16 ε²) = Σ_l (a_l − b_l + ε)²,
  the left side as the kernel groups it (the cross terms of a matrix product, a row term, a column term), the right side
  the reference's sum of squares. Both sides are then sums of real numbers, so the identity passes to the extended reals
  by pushing the coercion through the finite sums; the right side is a sum of squares, so clamping it at 0 changes nothing.
  Finite inputs are what makes every entry a real number here: at an infinite entry the left side's differences of
  infinities and the right side's would not agree.
-/
import Mathlib

noncomputable section

open scoped BigOperators

namespace Cert.Algebra

/-- The coercion of the reals into the extended reals passes through a finite sum. -/
theorem coe_sum {ι : Type*} (s : Finset ι) (f : ι → ℝ) : ((∑ l ∈ s, f l : ℝ) : EReal) = ∑ l ∈ s, (f l : EReal) := by
  classical
  induction s using Finset.induction_on with
  | empty => simp
  | insert a s ha ih => rw [Finset.sum_insert ha, Finset.sum_insert ha, EReal.coe_add, ih]

/-- The expansion of the sum of shifted squared differences, over the reals. -/
theorem real_expand (a b : Fin 16 → ℝ) (D : ℝ) :
    (∑ l, (a l * (-2)) * b l) + ((∑ l, a l * a l) + (2 * D) * ∑ l, a l) + (((∑ l, b l * b l) - (2 * D) * ∑ l, b l) + 16 * D ^ 2)
      = ∑ l, (a l - b l + D) * (a l - b l + D) := by
  have h16 : (16 : ℝ) * D ^ 2 = ∑ _l : Fin 16, D ^ 2 := by simp
  rw [h16, Finset.mul_sum, Finset.mul_sum]
  simp only [← Finset.sum_add_distrib, ← Finset.sum_sub_distrib]
  exact Finset.sum_congr rfl fun l _ => by ring

/-- The same over the extended reals, for entries that are real numbers, with the kernel's clamp at 0 and the host sum's
    initial 0: the kernel's clamped squared distance is the reference's. -/
theorem clamp_expand (a b : Fin 16 → ℝ) (D : ℝ) :
    max ((∑ l, ((a l : EReal) * ((-2 : ℝ) : EReal)) * (b l : EReal))
          + ((∑ l, (a l : EReal) * (a l : EReal)) + ((2 * D : ℝ) : EReal) * ∑ l, (a l : EReal))
          + (((∑ l, (b l : EReal) * (b l : EReal)) - ((2 * D : ℝ) : EReal) * ∑ l, (b l : EReal)) + ((16 * D ^ 2 : ℝ) : EReal))) 0
      = 0 + ∑ l, ((a l : EReal) - (b l : EReal) + (D : EReal)) * ((a l : EReal) - (b l : EReal) + (D : EReal)) := by
  have hL : (∑ l, ((a l : EReal) * ((-2 : ℝ) : EReal)) * (b l : EReal))
          + ((∑ l, (a l : EReal) * (a l : EReal)) + ((2 * D : ℝ) : EReal) * ∑ l, (a l : EReal))
          + (((∑ l, (b l : EReal) * (b l : EReal)) - ((2 * D : ℝ) : EReal) * ∑ l, (b l : EReal)) + ((16 * D ^ 2 : ℝ) : EReal))
        = (((∑ l, (a l * (-2)) * b l) + ((∑ l, a l * a l) + (2 * D) * ∑ l, a l) + (((∑ l, b l * b l) - (2 * D) * ∑ l, b l) + 16 * D ^ 2) : ℝ) : EReal) := by
    simp only [← EReal.coe_mul, ← coe_sum, ← EReal.coe_add, ← EReal.coe_sub]
  have hR : (0 : EReal) + ∑ l, ((a l : EReal) - (b l : EReal) + (D : EReal)) * ((a l : EReal) - (b l : EReal) + (D : EReal))
        = ((∑ l, (a l - b l + D) * (a l - b l + D) : ℝ) : EReal) := by
    simp only [← EReal.coe_mul, ← coe_sum, ← EReal.coe_add, ← EReal.coe_sub, zero_add]
  rw [hL, hR, real_expand]
  exact max_eq_left (EReal.coe_nonneg.mpr (Finset.sum_nonneg fun l _ => mul_self_nonneg _))

end Cert.Algebra

end
-- ==== Proof.Bridge.lean ====
/-
  The kernel's stored value, entry by entry, is the specification's entry.

  Row i of the row operand holds node i's 16 coordinates and column 4j + k of the right operand node j's; lane 4j + k of
  the radii and of the temperatures holds r₀, t₀ at k = 0 and r_{k−1}, t_{k−1} otherwise. With every coordinate a real
  number the kernel's grouped squared distance
      Σ_l (a_l · (−2)) · b_l + (Σ_l a_l² + 2ε Σ_l a_l) + ((Σ_l b_l² − 2ε Σ_l b_l) + 16 ε²),
  clamped at 0, is the reference's 0 + Σ_l (a_l − b_l + ε)², so each lane's value is the Fermi–Dirac value of that squared
  distance with the lane's radius and temperature. The mask picks the lanes that are multiples of 4: there the stored
  value is one minus the largest of the three following lanes' values, lanes 4j + 1, 4j + 2, 4j + 3 with no wrap around
  the end; elsewhere it is the lane's own value, of type k − 1.
-/
import proofs.«177336_g91164975825054_cont_sun_m_1275_4_alg».proof.Proof.KernelCell
import proofs.«177336_g91164975825054_cont_sun_m_1275_4_alg».proof.Proof.HostPre
import proofs.«177336_g91164975825054_cont_sun_m_1275_4_alg».proof.Proof.Consts
import proofs.«177336_g91164975825054_cont_sun_m_1275_4_alg».proof.Proof.Algebra
import proofs.«177336_g91164975825054_cont_sun_m_1275_4_alg».proof.Proof.Spec
import Idealize.ShloMosaic.PureOps.IdealRules

noncomputable section

open scoped BigOperators

namespace Cert.Bridge

open Cert.KernelIdeal Cert.KernelIdeal.Cell Cert.KernelIdeal.HostPre Idealize.ShloMosaic Idealize.ShloMosaic.ValueIdx

variable [Cert.KernelIdeal.Facts]

/-! ## The constants and the squared distance -/

/-- The table reads the kernel's last constant as 16 ε². -/
theorem named_eps_sq :
    Named.named (F := Ideal) κ "d_eps_sq" (φ := .f32) 0x2D8CBCCC#32 = ((16 * Cert.Consts.epsR ^ 2 : ℝ) : EReal) := by
  rw [IdealRules.named_const.ideal_named_scalar κ "d_eps_sq" (φ := .f32) 0x2D8CBCCC#32
    ((77371252064649 / 4835703278458516698824704 : ℝ) : EReal) rfl, Cert.Consts.sixteen_eps_sq]

/-- For a row and a column of real numbers the kernel's grouped squared distance, clamped at 0, is the sum of the
    squared shifted differences, from the initial value 0. -/
theorem d2_real (a b : Fin 16 → ℝ) :
    max (d2 (fun l => (a l : EReal)) (fun l => (b l : EReal))) (Ideal.ofBits .f32 0x00000000#32)
      = Ideal.ofBits .f32 0x00000000#32
        + ∑ l : Fin 16, ((a l : EReal) - (b l : EReal) + Ideal.ofBits .f32 0x358637BD#32)
            * ((a l : EReal) - (b l : EReal) + Ideal.ofBits .f32 0x358637BD#32) := by
  unfold d2
  rw [named_eps_sq, Cert.Consts.ofBits_neg_two, Cert.Consts.ofBits_two_eps, Cert.Consts.ofBits_zero, Cert.Consts.ofBits_eps]
  exact Cert.Algebra.clamp_expand a b Cert.Consts.epsR

/-! ## One lane -/

/-- At row i, lane 4j + k the kernel's value is the Fermi–Dirac value of the squared distance of nodes i and j with the
    lane's radius and temperature. -/
theorem lanev_eq (X : FVec Ideal S1x2048x16 .f32) (R T : FVec Ideal S3 .f32)
    (hX : ∀ i : S1x2048x16.Idx, ∃ a : ℝ, X i = (a : EReal)) (i j : Fin 2048) (k : Fin 4) :
    lanev (rows X) (cols X) (lanes R) (lanes T) i (lane j k) = Cert.Spec.fermi (Cert.Spec.sqd X i j) (quad R k) (quad T k) := by
  choose a ha using hX
  have hrow : (fun l : Fin 16 => rows X (ix2 i l)) = fun l : Fin 16 => ((a (ix3 (0 : Fin 1) i l) : ℝ) : EReal) :=
    funext fun l => (rows_at X i l).trans (ha _)
  have hcol : (fun l : Fin 16 => cols X (ix2 l (lane j k))) = fun l : Fin 16 => ((a (ix3 (0 : Fin 1) j l) : ℝ) : EReal) :=
    funext fun l => (cols_at X l j k).trans (ha _)
  have hs : Cert.Spec.sqd X i j
      = max (d2 (fun l : Fin 16 => rows X (ix2 i l)) (fun l : Fin 16 => cols X (ix2 l (lane j k)))) (Ideal.ofBits .f32 0x00000000#32) := by
    rw [hrow, hcol, d2_real]
    unfold Cert.Spec.sqd
    refine congrArg₂ (· + ·) rfl (Finset.sum_congr rfl fun l _ => ?_)
    rw [ha (ix3 (0 : Fin 1) i l), ha (ix3 (0 : Fin 1) j l)]
  unfold lanev expo fd Cert.Spec.fermi
  rw [lanes_at R j k, lanes_at T j k, hs]

/-! ## The lanes after a multiple of 4 -/

/-- From lane 4j the lane d further on, d below 4, is lane 4j + d: no wrap around the end. -/
theorem nxt_lane (j : Fin 2048) (d : Nat) (hd : d < 4) : nxt (lane j (0 : Fin 4)) d = lane j ⟨d, hd⟩ := by
  apply Fin.ext
  show (4 * j.val + 0 + d) % 8192 = 4 * j.val + d
  have := j.isLt
  omega

/-! ## The stored entry -/

/-- With every entry of the first argument a real number, the kernel's stored value at row i, lane 4j + k is the
    specification's entry at (i, j, k). -/
theorem cell_entry (X : FVec Ideal S1x2048x16 .f32) (R T : FVec Ideal S3 .f32)
    (hX : ∀ i : S1x2048x16.Idx, ∃ a : ℝ, X i = (a : EReal)) (i j : Fin 2048) (k : Fin 4) :
    cell (rows X) (cols X) (lanes R) (lanes T) i (lane j k) = Cert.Spec.entry X R T i j k := by
  unfold cell
  rw [lane_mask (lane j k)]
  by_cases hk : k.val = 0
  · -- lane 4j: one minus the largest of the three following lanes
    have hk0 : k = (0 : Fin 4) := Fin.ext hk
    subst hk0
    have hm : (lane j (0 : Fin 4)).val % 4 = 0 := by
      show (4 * j.val + 0) % 4 = 0
      omega
    rw [if_pos hm, select_one, nxt_lane j 1 (by decide), nxt_lane j 2 (by decide), nxt_lane j 3 (by decide),
      lanev_eq X R T hX, lanev_eq X R T hX, lanev_eq X R T hX, Cert.Spec.entry_zero]
    rfl
  · -- lane 4j + k, k = 1, 2, 3: the lane's own value, of type k − 1
    have hm : ¬ (lane j k).val % 4 = 0 := by
      show ¬ (4 * j.val + k.val) % 4 = 0
      have := k.isLt
      omega
    rw [if_neg hm, select_zero, lanev_eq X R T hX i j k]
    unfold Cert.Spec.entry Cert.Spec.edge quad
    rw [if_neg hk, dif_neg hk, dif_neg hk]

end Cert.Bridge

end
-- ==== Proof.lean ====
/-
  The claim: the kernel and its reference compute the same Fermi–Dirac edge decoder over the extended reals.

  For 2048 nodes with 16 coordinates each, radii r and temperatures t of three edge types, both programs return, at
  (0, i, j, k), the probability 1 / (exp ((d_ij − r_{k−1}) · t_{k−1}) + 1) of an edge of type k − 1 for k = 1, 2, 3 and, at
  k = 0, one minus the largest of the three, with d_ij = √(Σ_l (x_il − x_jl + ε)²) and ε the reference's word for 1e-6.
  The reference forms the 2048 × 2048 × 16 differences and sums their squares. The kernel expands the square:
  a matrix product of the rows (scaled by −2) with the transposed, four-times-repeated nodes gives the cross terms in the
  output's own lane order (lane 4j + k belongs to node j), a row term Σ x_il² + 2ε Σ x_il and a column term
  Σ x_jl² − 2ε Σ x_jl + 16 ε² complete it, and the clamp at 0 before the square root is idle because the sum is a sum of
  squares. The expansion is an identity of real numbers, so it is used where every coordinate is a real number: that is
  what the precondition (all inputs finite) gives. The kernel's word for 16 · 1e-12 is read, by the certificate's table, as
  the exact 16 ε² (one ledger entry); its word for 2e-6 is exactly 2ε as printed. The no-edge lanes take the largest of the
  three following lanes through lane rotations; the reference takes a maximum from −∞ over the last axis: the same number.

  The frames of the two kernel programs are the generated ones; the reference's frame is its run with the result dropped.
  The two runs are joined entry by entry: the reference's result at (0, i, j, k) and the kernel's reshaped output array at
  row i, lane 4j + k are both the specification's entry.
-/
import proofs.«177336_g91164975825054_cont_sun_m_1275_4_alg».proof.Defs
import proofs.«177336_g91164975825054_cont_sun_m_1275_4_alg».proof.Proof.Gen.Kernel
import proofs.«177336_g91164975825054_cont_sun_m_1275_4_alg».proof.Proof.Gen.Kernel.Skeleton
import proofs.«177336_g91164975825054_cont_sun_m_1275_4_alg».proof.Proof.Gen.Kernel.Launch
import proofs.«177336_g91164975825054_cont_sun_m_1275_4_alg».proof.Proof.Gen.Kernel.Points
import proofs.«177336_g91164975825054_cont_sun_m_1275_4_alg».proof.Proof.Gen.Kernel.Frame
import proofs.«177336_g91164975825054_cont_sun_m_1275_4_alg».proof.Proof.Gen.KernelIdeal
import proofs.«177336_g91164975825054_cont_sun_m_1275_4_alg».proof.Proof.Gen.KernelIdeal.Skeleton
import proofs.«177336_g91164975825054_cont_sun_m_1275_4_alg».proof.Proof.Gen.KernelIdeal.Launch
import proofs.«177336_g91164975825054_cont_sun_m_1275_4_alg».proof.Proof.Gen.KernelIdeal.Points
import proofs.«177336_g91164975825054_cont_sun_m_1275_4_alg».proof.Proof.Gen.KernelIdeal.Frame
import proofs.«177336_g91164975825054_cont_sun_m_1275_4_alg».proof.Proof.Gen.ReferenceIdeal
import proofs.«177336_g91164975825054_cont_sun_m_1275_4_alg».proof.Proof.Gen.Pre_finite_inputs
import proofs.«177336_g91164975825054_cont_sun_m_1275_4_alg».proof.Proof.RefRunP
import proofs.«177336_g91164975825054_cont_sun_m_1275_4_alg».proof.Proof.RefReadP
import proofs.«177336_g91164975825054_cont_sun_m_1275_4_alg».proof.Proof.RefEntry
import proofs.«177336_g91164975825054_cont_sun_m_1275_4_alg».proof.Proof.Spec
import proofs.«177336_g91164975825054_cont_sun_m_1275_4_alg».proof.Proof.Finite
import proofs.«177336_g91164975825054_cont_sun_m_1275_4_alg».proof.Proof.HostPre
import proofs.«177336_g91164975825054_cont_sun_m_1275_4_alg».proof.Proof.KernelValue
import proofs.«177336_g91164975825054_cont_sun_m_1275_4_alg».proof.Proof.Bridge
import Idealize.ShloMosaic.Adequacy
import Idealize.ShloMosaic.Init

noncomputable section

namespace Cert.Proof

open Idealize.ShloMosaic Idealize.ShloMosaic.TcCoe Idealize.ShloMosaic.ValueIdx Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ledger's one entry: the table gives the kernel's last constant the value 16 ε². -/
theorem preserves : Cert.preserves_Kernel_KernelIdeal :=
  IdealRules.named_const.statement Cert.KernelIdeal.κ "d_eps_sq" .f32 0x2D8CBCCC#32
    ((77371252064649 / 4835703278458516698824704 : ℝ) : EReal) rfl

/-- Both runs end with the same result: entry by entry it is the specification's entry. -/
theorem algebraic : Cert.algebraic_KernelIdeal_ReferenceIdeal := by
  intro m ρ m' ρ' hpre hagree
  refine ⟨_, Cert.KernelIdeal.KValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v27_eq, (hagree c).1, (hagree c).2.1, (hagree c).2.2]
  -- every coordinate of the kernel's first argument is a real number
  have hX := Cert.Finite.x_real _ _ _ (hpre c)
  funext o
  obtain ⟨a, i, j, k, rfl⟩ : ∃ (a : Fin 1) (i j : Fin 2048) (k : Fin 4), o = ix4 a i j k := ⟨o 0, o 1, o 2, o 3, eq_ix4 o⟩
  obtain rfl : a = 0 := Subsingleton.elim _ _
  rw [Cert.ReferenceIdeal.RefEntry.ref_entry, Cert.KernelIdeal.KValue.result_at, Cert.KernelIdeal.HostPre.V_rows,
    Cert.KernelIdeal.HostPre.V_cols, Cert.KernelIdeal.HostPre.V_radii, Cert.KernelIdeal.HostPre.V_temps]
  exact (Cert.Bridge.cell_entry _ _ _ hX i j k).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
